-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S10000x64 : Shape := ⟨2, ![10000, 64]⟩
abbrev S10000x10000 : Shape := ⟨2, ![10000, 10000]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S1 .f32) (main_arg1 : FVec F S10000x64 .f32) (main_arg2 : FVec F S10000x10000 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  main_v13
-- ==== Kernel.lean ====
abbrev S1 : Shape := ⟨1, ![1]⟩
abbrev S10000x64 : Shape := ⟨2, ![10000, 64]⟩
abbrev S10000x10000 : Shape := ⟨2, ![10000, 10000]⟩
abbrev S_ : Shape := ⟨0, ![]⟩
abbrev S10240x64 : Shape := ⟨2, ![10240, 64]⟩
abbrev S10240x10240 : Shape := ⟨2, ![10240, 10240]⟩
abbrev S2560x1280 : Shape := ⟨2, ![2560, 1280]⟩
abbrev S1280x64 : Shape := ⟨2, ![1280, 64]⟩
abbrev S2560x64 : Shape := ⟨2, ![2560, 64]⟩
abbrev S2560 : Shape := ⟨1, ![2560]⟩
abbrev S2560x1 : Shape := ⟨2, ![2560, 1]⟩

abbrev nBuf : Space → Nat
  | .hbm => 11
  | .vmem => 9
  | .smem => 0
  | _ => 0

abbrev bufTy : (tb : Table) → Fin (tcTables nBuf tb) → BufTy
  | .hbm, ⟨0, _⟩ => ⟨S1, .f32⟩
  | .hbm, ⟨1, _⟩ => ⟨S10000x64, .f32⟩
  | .hbm, ⟨2, _⟩ => ⟨S10000x10000, .f32⟩
  | .hbm, ⟨3, _⟩ => ⟨S_, .i32⟩
  | .hbm, ⟨4, _⟩ => ⟨S_, .f32⟩
  | .hbm, ⟨5, _⟩ => ⟨S10240x64, .f32⟩
  | .hbm, ⟨6, _⟩ => ⟨S_, .i32⟩
  | .hbm, ⟨7, _⟩ => ⟨S_, .f32⟩
  | .hbm, ⟨8, _⟩ => ⟨S10240x10240, .f32⟩
  | .hbm, ⟨9, _⟩ => ⟨S10240x64, .f32⟩
  | .hbm, ⟨10, _⟩ => ⟨S10000x64, .f32⟩
  | .local _ .vmem, ⟨0, _⟩ => ⟨S2560x1280, .f32⟩
  | .local _ .vmem, ⟨1, _⟩ => ⟨S2560x1280, .f32⟩
  | .local _ .vmem, ⟨2, _⟩ => ⟨S1280x64, .f32⟩
  | .local _ .vmem, ⟨3, _⟩ => ⟨S1280x64, .f32⟩
  | .local _ .vmem, ⟨4, _⟩ => ⟨S2560x64, .f32⟩
  | .local _ .vmem, ⟨5, _⟩ => ⟨S2560x64, .f32⟩
  | .local _ .vmem, ⟨6, _⟩ => ⟨S2560x64, .f32⟩
  | .local _ .vmem, ⟨7, _⟩ => ⟨S2560x64, .f32⟩
  | .local _ .vmem, ⟨8, _⟩ => ⟨S2560x64, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2560x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2560x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2560x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S10000x64_S10240x64_02400_000 : S10000x64.Pads (![0, 0] : Fin 2 → Nat) ![240, 0] ![0, 0] S10240x64
  h_S_ : 0 < S_.numel
  pads_S10000x10000_S10240x10240_02400_02400 : S10000x10000.Pads (![0, 0] : Fin 2 → Nat) ![240, 240] ![0, 0] S10240x10240
  inb_S2560x64_S2560x64_0_0 : ∀ a, (![0, 0] : Fin 2 → Nat) a + S2560x64.size a ≤ S2560x64.size a
  h_S2560x64 : 0 < S2560x64.numel
  shapeCasts_S2560x64_S2560x64 : S2560x64.ShapeCasts S2560x64
  inb_S2560x1280_S2560x1280_0_0 : ∀ a, (![0, 0] : Fin 2 → Nat) a + S2560x1280.size a ≤ S2560x1280.size a
  h_S2560x1280 : 0 < S2560x1280.numel
  shapeCasts_S2560x1280_S2560x1280 : S2560x1280.ShapeCasts S2560x1280
  bitsLt_bf16_f32 : FTy.bits .bf16 < FTy.bits .f32
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  reduces_S2560x64_S2560 : S2560x64.Reduces [1] S2560
  shapeCasts_S2560_S2560x1 : S2560.ShapeCasts S2560x1
  broadcasts_S2560x1_S2560x64 : S2560x1.Broadcasts S2560x64
  slices_S10240x64_S10000x64_0_0 : S10240x64.Slices ![0, 0] S10000x64
  dot_S2560x1280_S1280x64_S2560x64_1_0_0_1_n_n_wf : DotDims.WF S2560x1280 S1280x64 S2560x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x1280.size a ≤ S10240x10240.size a
  hwx0_0 : ∀ i : grid0.Coords, EltTy.bits .f32 = 32 ∨ (Rect.block (s := S10240x10240) S2560x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x64.size a ≤ S10240x64.size a
  hwx0_1 : ∀ i : grid0.Coords, EltTy.bits .f32 = 32 ∨ (Rect.block (s := S10240x64) S1280x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x64.size a ≤ S10240x64.size a
  hwx0_2 : ∀ i : grid0.Coords, EltTy.bits .f32 = 32 ∨ (Rect.block (s := S10240x64) S2560x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2560x64.size a ≤ S10240x64.size a
  hwx0_3 : ∀ i : grid0.Coords, EltTy.bits .f32 = 32 ∨ (Rect.block (s := S10240x64) S2560x64.size (cc0_transform_3 i) (hinb0_3 i)).WholeWords (EltTy.packing .f32)

variable [Facts₀]

def dot_S2560x1280_S1280x64_S2560x64_1_0_0_1_n_n : DotDims S2560x1280 S1280x64 S2560x64 where
  lhsContracting := [1]
  rhsContracting := [0]
  lhsNonContracting := [0]
  rhsNonContracting := [1]
  lhsBatch := []
  rhsBatch := []
  wf := dot_S2560x1280_S1280x64_S2560x64_1_0_0_1_n_n_wf

abbrev win0_0 : Pipeline.Window sig grid0 :=
  Pipeline.Window.ofSpec (Memref.whole main_v1) S2560x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1280x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2560x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2560x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1 : Shape := ⟨1, ![1]⟩
abbrev S10000x64 : Shape := ⟨2, ![10000, 64]⟩
abbrev S10000x10000 : Shape := ⟨2, ![10000, 10000]⟩
abbrev S_ : Shape := ⟨0, ![]⟩
abbrev S10000 : Shape := ⟨1, ![10000]⟩
abbrev S10000x1 : Shape := ⟨2, ![10000, 1]⟩

abbrev nBuf : Space → Nat
  | .hbm => 19
  | .vmem => 0
  | .smem => 0
  | _ => 0

abbrev bufTy : (tb : Table) → Fin (tcTables nBuf tb) → BufTy
  | .hbm, ⟨0, _⟩ => ⟨S1, .f32⟩
  | .hbm, ⟨1, _⟩ => ⟨S10000x64, .f32⟩
  | .hbm, ⟨2, _⟩ => ⟨S10000x10000, .f32⟩
  | .hbm, ⟨3, _⟩ => ⟨S10000x64, .f32⟩
  | .hbm, ⟨4, _⟩ => ⟨S10000x64, .f32⟩
  | .hbm, ⟨5, _⟩ => ⟨S_, .f32⟩
  | .hbm, ⟨6, _⟩ => ⟨S10000, .f32⟩
  | .hbm, ⟨7, _⟩ => ⟨S10000x1, .f32⟩
  | .hbm, ⟨8, _⟩ => ⟨S_, .f32⟩
  | .hbm, ⟨9, _⟩ => ⟨S10000x1, .f32⟩
  | .hbm, ⟨10, _⟩ => ⟨S10000x1, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S_, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S10000x64, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  reducesTo_S10000x64_S10000_d1 : S10000x64.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  dot_S10000x10000_S10000x64_S10000x64_1_0_0_1_n_n_wf : DotDims.WF S10000x10000 S10000x64 S10000x64 [1] [0] [0] [1] [] []

variable [Facts₀]

def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KBody.lean ====
/-
  The kernel body of the blocked product, run once per case of its two branches.

  The grid is 4 row blocks by 8 reduction steps; point `t` has reduction step `t % 8`.  At step 0 the body first
  clears the accumulator; at every step it adds the product of the current `A` block (2560 × 1280) with the current
  block of `x` rows (1280 × 64) to the accumulator; at step 7 it also writes the output block
  `1 − 0.1·xi − 0.01·rowsum(xi · acc)`.  Every load and store goes through the whole buffer, so each buffer ends at
  the payload of the last store into it.
-/
import proofs.«160787_j30923764531786_1_alg».proof.Proof.Gen.Kernel.Launch
import proofs.«160787_j30923764531786_1_alg».proof.Proof.Gen.Kernel.Skeleton
import proofs.«160787_j30923764531786_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first reduction step": the condition of the accumulator's reset. -/
abbrev cond1 (i : grid0.Coords) : Prop := (Scalar.cmpi .ne (Scalar.extui (Scalar.cmpi .eq (BitVec.ofNat 32 (i 1).val) 0#32)) 0#32) = 1#1
/-- "This is the last reduction step": the condition of the output's store. -/
abbrev cond2 (i : grid0.Coords) : Prop := k0_cond2 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val % 8 = 7 :=
  (by decide +kernel : ∀ t : Fin grid0.N, cond2 (grid0.coords t) ↔ t.val % 8 = 7)

/-- The input windows are never idle. -/
theorem live0 : ∀ i, cfg0.idle 0 i = false := fun _ => rfl
theorem live1 : ∀ i, cfg0.idle 1 i = false := fun _ => rfl
theorem live2 : ∀ i, cfg0.idle 2 i = false := fun _ => rfl
/-- The output window is idle, and not written back, at every step but the last; live at the last. -/
theorem idle3 : ∀ t : Fin cfg0.N, ¬ t.val % 8 = 7 → cfg0.idle 3 (grid0.coords t) = true := by decide +kernel
theorem noFlush3 : ∀ t : Fin cfg0.N, ¬ t.val % 8 = 7 → (cfg0.win 3).flush t = false := by decide +kernel
theorem live3 : ∀ t : Fin cfg0.N, t.val % 8 = 7 → cfg0.idle 3 (grid0.coords t) = false := by decide +kernel

/-- Zero offsets, however spelt. -/
theorem hz2 : (![0, 0] : Fin 2 → ℕ) = fun _ => 0 := by funext a; fin_cases a <;> rfl

/-- A list of stores whose LAST one goes through the whole buffer covers the buffer. -/
theorem cover_head {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self .., View.mem_set_unit_zero h inb y⟩

/-- The scratch accumulator as a memref. -/
abbrev scM : Memref sig .tc .vmem S2560x64 .f32 := Memref.whole cc0_scratch0

/-- The region's own invariant: the accumulator at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The body's triple, case by case -/

section Triples
variable (c : Dev nD) (i : grid0.Coords) (arg2 : Memref sig .tc .vmem S2560x1280 .f32) (harg2 : arg2.IsWhole) (arg3 : Memref sig .tc .vmem S1280x64 .f32) (harg3 : arg3.IsWhole) (arg4 : Memref sig .tc .vmem S2560x64 .f32) (harg4 : arg4.IsWhole) (arg5 : Memref sig .tc .vmem S2560x64 .f32) (harg5 : arg5.IsWhole) (arg6 : Memref sig .tc .vmem S2560x64 .f32) (harg6 : arg6.IsWhole)
  (x0 : Vec F S2560x1280 .f32) (x1 : Vec F S1280x64 .f32) (x2 : Vec F S2560x64 .f32)

set_option maxHeartbeats 1000000 in
/-- First reduction step: whatever the accumulator held, it ends at the first product added to zero; the output
    buffer is handed back as found. -/
theorem run_first (hc1 : cond1 i) (hc2 : ¬cond2 i) (d3 : Vec F S2560x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ (∃ s, owns (c : Thread nD τ) arg6 fullShare s)
        ∗ (iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare (k0_pay2 x0 x1 (k0_pay1 (F := F)))) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%s, %fs, -, HS⟩, Hk⟩
  subst hf0; subst hf1; subst hf2; subst hf3
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists _; isplitr
  swap; · iexact HS
  ipureintro
  sl_unfold_run_names
  rw [View.read_writes_eq_canon _ _ _ (fun y => cover_head hz2 inb_S2560x64_S2560x64_0_0 _ _ y),
    View.canon_cons_unit_zero hz2, View.readCov_unit_zero (S := S2560x64) arg6.view hz2]
  simp only [View.readAt_eq_ld, View.ld_unit_zero (S := S2560x1280) hz2, View.ld_unit_zero (S := S1280x64) hz2, View.ld_unit_zero (S := S2560x64) hz2]

set_option maxHeartbeats 1000000 in
/-- A middle reduction step: the accumulator ends at what it held plus this step's product; the output buffer is
    handed back as found. -/
theorem run_mid (hc1 : ¬cond1 i) (hc2 : ¬cond2 i) (d3 : Vec F S2560x64 .f32) (s : Vec F S2560x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare (k0_pay2 x0 x1 s)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists _; isplitr
  swap; · iexact HS
  ipureintro
  sl_unfold_run_names
  rw [View.read_writes_eq_canon _ _ _ (fun y => cover_head hz2 inb_S2560x64_S2560x64_0_0 _ _ y),
    View.canon_cons_unit_zero hz2]
  simp only [View.readAt_eq_ld, View.ld_unit_zero (S := S2560x1280) hz2, View.ld_unit_zero (S := S1280x64) hz2, View.ld_unit_zero (S := S2560x64) hz2]

set_option maxHeartbeats 1000000 in
/-- The last reduction step: the accumulator ends at what it held plus this step's product, and the output buffer,
    whatever it held, at the output formula of this row block of `x` and the finished accumulator. -/
theorem run_last (hc1 : ¬cond1 i) (hc2 : cond2 i) (s : Vec F S2560x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare (k0_pay3 x2 (k0_pay2 x0 x1 s)) ∗ owns (c : Thread nD τ) arg6 fullShare (k0_pay2 x0 x1 s)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    swap; · iexact H3
    ipureintro
    sl_unfold_run_names
    rw [View.read_writes_eq_canon _ _ _ (fun y => cover_head hz2 inb_S2560x64_S2560x64_0_0 _ _ y),
      View.canon_cons_unit_zero hz2]
    simp only [View.readAt_eq_ld, View.ld_unit_zero (S := S2560x1280) hz2, View.ld_unit_zero (S := S1280x64) hz2, View.ld_unit_zero (S := S2560x64) hz2, View.readCov_unit_zero (S := S2560x64) arg6.view hz2]
  iexists _; isplitr
  swap; · iexact HS
  ipureintro
  sl_unfold_run_names
  rw [View.read_writes_eq_canon _ _ _ (fun y => cover_head hz2 inb_S2560x64_S2560x64_0_0 _ _ y),
    View.canon_cons_unit_zero hz2]
  simp only [View.readAt_eq_ld, View.ld_unit_zero (S := S2560x1280) hz2, View.ld_unit_zero (S := S1280x64) hz2, View.ld_unit_zero (S := S2560x64) hz2]

end Triples

end Cert.Kernel.Hand

end
-- ==== Proof.KFrame.lean ====
/-
  The run of the whole program: host operations (two zero paddings), the blocked-product region, one host slice.

  The region's proof data names, point by point, what the scratch accumulator holds (the running sum of the block
  products of the current row block) and, at the last reduction step of a row block, what is written back for it.
  The padded `x` is read by two windows (the reduction's rows and the output's rows): the two hold its buffer at
  complementary half shares, and neither writes it.
-/
import proofs.«160787_j30923764531786_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region
-- the TensorCore's buffer contents when the region is entered
variable (V : (c : Dev nD) → (b : Ref sig .tc) → Buf (Elt F) ((c : Thread nD τ).loc b))

/-! ## The windows' blocks and the accumulator -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the accumulator holds after point `n`: at the first reduction step of a row block the first block
    product added to zero, afterwards the previous contents plus this step's product. -/
def accAt (c : Dev nD) : (n : ℕ) → n < cfg0.N → Vec F S2560x64 .f32
  | 0, hn => k0_pay2 (iblk V c 0 ⟨0, hn⟩) (iblk V c 1 ⟨0, hn⟩) (k0_pay1 (F := F))
  | n + 1, hn =>
    if (n + 1) % 8 = 0 then k0_pay2 (iblk V c 0 ⟨n + 1, hn⟩) (iblk V c 1 ⟨n + 1, hn⟩) (k0_pay1 (F := F))
    else k0_pay2 (iblk V c 0 ⟨n + 1, hn⟩) (iblk V c 1 ⟨n + 1, hn⟩) (accAt c n (Nat.lt_of_succ_lt hn))

theorem accAt_first (c : Dev nD) (t : Fin cfg0.N) (h : t.val % 8 = 0) :
    accAt V c t.val t.isLt = k0_pay2 (iblk V c 0 t) (iblk V c 1 t) (k0_pay1 (F := F)) := by
  obtain ⟨n, hn⟩ := t
  cases n with
  | zero => rfl
  | succ n => exact if_pos h

theorem accAt_step (c : Dev nD) (t : Fin cfg0.N) (h : ¬ t.val % 8 = 0) :
    accAt V c t.val t.isLt = k0_pay2 (iblk V c 0 t) (iblk V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The region's invariant before point `n`: at the start the accumulator at anything, afterwards at what the
    point before left; beside it the generator register at some state. -/
def PhiS (c : Dev nD) : (n : ℕ) → n ≤ cfg0.N → sProp 𝕄
  | 0, _ => Pipeline.ΦA spec0 c
  | n + 1, hn => iprop(iprop(owns (c : Thread nD τ) scM fullShare (accAt V c n hn)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn)) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega))) ∗ (∃ r, prngReg c r)) := by
  cases n with
  | zero => exact absurd rfl hz
  | succ n => rfl

/-! ## The proof data -/

/-- The region's proof data on core `c`: the arrays as the region finds them; after the body each input's buffer at
    its block, the output's at the output formula of this row block of `x` and the accumulator; the padded `x`
    held by its two reading windows at the two halves of the full share. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (iblk V c 2 t) (accAt V c t.val t.isLt)
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = k0_pay3 (iblk V c 2 t) (accAt V c t.val t.isLt) := by dsimp only [dat0]

/-- Each input's current staging buffer holds its block at every point, fetched there or not. -/
theorem before0 (c : Dev nD) (t : Fin cfg0.N) (d) : (dat0 V c).before 0 t d = iblk V c 0 t :=
  ((dat0 V c).before_in_eq_fetched 0 rfl live0 (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat0 V c).before 1 t d = iblk V c 1 t :=
  ((dat0 V c).before_in_eq_fetched 1 rfl live1 (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat0 V c).before 2 t d = iblk V c 2 t :=
  ((dat0 V c).before_in_eq_fetched 2 rfl live2 (fun _ _ _ => rfl) (fun t => by rw [after2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point, by the case its reduction step selects. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from rfl, after0,
    show (dat0 V c).leavesExact 1 t = owns (c : Thread nD τ) (st0_1 t) fullShare ((dat0 V c).after 1 t) from rfl, after1,
    show (dat0 V c).leavesExact 2 t = owns (c : Thread nD τ) (st0_2 t) fullShare ((dat0 V c).after 2 t) from rfl, after2]
  by_cases h7 : t.val % 8 = 7
  · have h0 : ¬ t.val % 8 = 0 := by omega
    have hz : t.val ≠ 0 := fun e => by rw [e] at h7; exact absurd h7 (by decide)
    rw [show (dat0 V c).leavesExact 3 t = owns (c : Thread nD τ) (st0_3 t) fullShare ((dat0 V c).after 3 t) from by
      unfold Dat.leavesExact; rw [live3 t h7], after3, accAt_step V c t h0]
    rw [PhiS_castSucc V c t, PhiS_pos V c _ _ hz]
    iintro ⟨⟨HS, Hg⟩, Ho, ⟨%d0, H0⟩, ⟨%d1, H1⟩, ⟨%d2, H2⟩, ⟨%d3, H3⟩⟩
    iapply (run_last c (grid0.coords t) _ _ _ _ _ _ _ _ _ _ (iblk V c 0 t) (iblk V c 1 t) (iblk V c 2 t)
      (fun h => h0 ((hcond1 t).mp h)) ((hcond2 t).mpr h7) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexact H3
  · rw [Dat.leavesExact_idle (dat0 V c) 3 t (idle3 t h7) (noFlush3 t h7)]
    by_cases h0 : t.val % 8 = 0
    · rw [accAt_first V c t h0]
      have hrun := fun (d3 : Vec F S2560x64 .f32) (K : PUnit → sProp 𝕄) =>
        run_first c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) scM (Memref.isWhole_whole _) (iblk V c 0 t) (iblk V c 1 t) (iblk V c 2 t)
          ((hcond1 t).mpr h0) (fun h => h7 ((hcond2 t).mp h)) d3 Set.univ K
      by_cases hz : t.val = 0
      · rw [PhiS_castSucc V c t, PhiS_zero V c _ _ hz, PhiA_eq]
        iintro ⟨⟨HS, Hg⟩, Ho, ⟨%d0, H0⟩, ⟨%d1, H1⟩, ⟨%d2, H2⟩, ⟨%d3, H3⟩⟩
        iapply (hrun _ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]; · iexact HS
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨HS, Hg⟩, Ho, ⟨%d0, H0⟩, ⟨%d1, H1⟩, ⟨%d2, H2⟩, ⟨%d3, H3⟩⟩
        iapply (hrun _ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hg]
        · isplitl [HS]; · iexact HS
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt_step V c t h0]
      rw [PhiS_castSucc V c t, PhiS_pos V c _ _ hz]
      iintro ⟨⟨HS, Hg⟩, Ho, ⟨%d0, H0⟩, ⟨%d1, H1⟩, ⟨%d2, H2⟩, ⟨%d3, H3⟩⟩
      iapply (run_mid c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) scM (Memref.isWhole_whole _) (iblk V c 0 t) (iblk V c 1 t) (iblk V c 2 t)
        (fun h => h0 ((hcond1 t).mp h)) (fun h => h7 ((hcond2 t).mp h)) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat0 (F := F) V c) (defs₀ (F := F)) Variants.none () Set.univ := fun t => by
  rw [bigSep_W0, bigSep_W0]
  exact sound_body V c t

/-- After any point but the first the invariant gives the region's own invariant back: the accumulator's named
    contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_eq]
  iintro ⟨HS, Hg⟩
  isplitl [HS]
  · iexists _; iexact HS
  iexact Hg

theorem hout0 (c : Dev nD) : (dat0 V c).Φ (Fin.last cfg0.N) ⊢ Pipeline.ΦA spec0 c :=
  Phi_out V c _ (by rw [Fin.val_last]; have : cfg0.N = 32 := N_0; omega)

end Region

/-! ## The padded `x` is read by two windows: splitting and rejoining its buffer -/

section Shared
variable (V : (c : Dev nD) → (b : Ref sig .tc) → Buf (Elt F) ((c : Thread nD τ).loc b))

/-- The three distinct buffers behind the four windows' arrays. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v1) ↦{fullShare} Vc main_v1) ∗ (((c : Thread nD τ).loc main_v0) ↦{fullShare} Vc main_v0) ∗ (((c : Thread nD τ).loc main_v2) ↦{fullShare} Vc main_v2)) := by
  unfold Pipeline.arrBufs; exact bigSep_eq_bigSepL_of_eq [main_v1, main_v0, main_v2] (by decide) (by decide) _

theorem share0 (c : Dev nD) : (dat0 V c).share 0 = fullShare := rfl
theorem share1 (c : Dev nD) : (dat0 V c).share 1 = fullShare.left := rfl
theorem share2 (c : Dev nD) : (dat0 V c).share 2 = fullShare.right := rfl
theorem share3 (c : Dev nD) : (dat0 V c).share 3 = fullShare := rfl

/-- The windows' arrays as whole buffers, window by window. -/
theorem arrays_form (c : Dev nD) (Fw : (w : Fin cfg0.W) → Buf (Elt F) ((cfg0.win w).arr.view.loc (c : Thread nD τ))) :
    ((dat0 V c).arrays Fw : sProp 𝕄)
      = iprop((((c : Thread nD τ).loc main_v1) ↦{fullShare} Fw 0) ∗ (((c : Thread nD τ).loc main_v0) ↦{fullShare.left} Fw 1)
          ∗ (((c : Thread nD τ).loc main_v0) ↦{fullShare.right} Fw 2) ∗ (((c : Thread nD τ).loc main_v2) ↦{fullShare} Fw 3)) := by
  unfold Dat.arrays
  rw [bigSep_W0, (arr_whole0 0).set_eq_univ, (arr_whole0 1).set_eq_univ, (arr_whole0 3).set_eq_univ,
    share0, share1, share2, share3]

/-- ENTRY: the unscoped buffers give the windows their arrays, the padded `x` halved between its two readers. -/
theorem entry_split (c : Dev nD) :
    (unscopedBufs c (V c) : sProp 𝕄) ⊢ iprop((dat0 V c).arrays (dat0 V c).A ∗ Pipeline.unscopedRest spec0 c (V c)) := by
  rw [Pipeline.unscopedBufs_split₀ cfgs (0 : Fin 1) (by decide) c (V c)]
  refine sep_mono ?_ .rfl
  rw [arrBufs_eq, arrays_form]
  iintro ⟨H1, H0, H2⟩
  ihave H0' := (pointsTo_share (PosShare.mem_left_op_right fullShare)).1 $$ H0
  icases H0' with ⟨Ha, Hb⟩
  isplitl [H1]; · iexact H1
  isplitl [Ha]; · iexact Ha
  isplitl [Hb]; · iexact Hb
  iexact H2

/-- EXIT: the arrays at contents `Fw` and the rest make the unscoped buffers at any valuation that reads `Fw` at
    the arrays and the entry contents elsewhere; the two halves of the padded `x` rejoin. -/
theorem exit_join (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w))
    (hrest : ∀ b, b ∉ Finset.univ.image (Pipeline.arrRef spec0) → V' b = V c b) :
    iprop((dat0 V c).arrays Fw ∗ Pipeline.unscopedRest spec0 c (V c)) ⊢ (unscopedBufs c V' : sProp 𝕄) := by
  rw [Pipeline.unscopedBufs_split₀ cfgs (0 : Fin 1) (by decide) c V']
  refine sep_mono ?_ (Entails.of_eq ?_)
  · rw [arrBufs_eq, arrays_form, hF 0, hF 1, hF 2, hF 3]
    iintro ⟨H1, Ha, Hb, H2⟩
    isplitl [H1]; · iexact H1
    isplitl [Ha Hb]
    · iapply (pointsTo_share (PosShare.mem_left_op_right fullShare)).2
      isplitl [Ha]; · iexact Ha
      iexact Hb
    iexact H2
  · unfold Pipeline.unscopedRest
    exact bigSep_congr fun b hb => by rw [hrest b (Finset.mem_sdiff.mp hb).2]

end Shared

/-! # The run: @main's segments from the launch to the return -/

/-- Core `c`'s buffers at launch, and after each stretch of host operations before the region. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- The region's entry contents read at the TensorCore's references. -/
abbrev V4 : (c : Dev nD) → (b : Ref sig .tc) → Buf (Elt F) ((c : Thread nD τ).loc b) := fun c b => W4 m ρ c b
/-- At the region's exit: the result array at what the write-backs leave, every other buffer as entered. -/
def W5 (c : Dev nD) : Valuation τ sig (Elt F) :=
  Function.update (W4 m ρ c) (Proc.devRef .tc main_v2) ((dat0 (V4 m ρ) c).arrAt 3 cfg0.N)
abbrev V5 : (c : Dev nD) → (b : Ref sig .tc) → Buf (Elt F) ((c : Thread nD τ).loc b) := fun c b => W5 m ρ c b
/-- After the slice. -/
abbrev W6 : Dev nD → Valuation τ sig (Elt F) := fun c => StableHlo.after hostOps1 (W5 m ρ c)

theorem W5_out (c : Dev nD) : W5 m ρ c (Proc.devRef .tc main_v2) = (dat0 (V4 m ρ) c).arrAt 3 cfg0.N := by
  unfold W5; exact Function.update_self ..
theorem W5_of_ne (c : Dev nD) (b : Ref sig .tc) (hb : b ≠ main_v2) : W5 m ρ c (Proc.devRef .tc b) = W4 m ρ c (Proc.devRef .tc b) := by
  unfold W5; exact Function.update_of_ne (StableHlo.devRef_ne_of_ne hb) ..

theorem hF5 (c : Dev nD) (w : Fin cfg0.W) : (dat0 (V4 m ρ) c).arrAt w cfg0.N = V5 m ρ c (Pipeline.arrRef spec0 w) := by
  match w with
  | ⟨0, _⟩ => exact ((dat0 (V4 m ρ) c).arrAt_in 0 rfl _).trans ((A_eq (V4 m ρ) c 0).trans (W5_of_ne m ρ c main_v1 (by decide)).symm)
  | ⟨1, _⟩ => exact ((dat0 (V4 m ρ) c).arrAt_in 1 rfl _).trans ((A_eq (V4 m ρ) c 1).trans (W5_of_ne m ρ c main_v0 (by decide)).symm)
  | ⟨2, _⟩ => exact ((dat0 (V4 m ρ) c).arrAt_in 2 rfl _).trans ((A_eq (V4 m ρ) c 2).trans (W5_of_ne m ρ c main_v0 (by decide)).symm)
  | ⟨3, _⟩ => exact (W5_out m ρ c).symm
theorem hrest5 (c : Dev nD) : ∀ b, b ∉ Finset.univ.image (Pipeline.arrRef spec0) → V5 m ρ c b = V4 m ρ c b :=
  fun b hb => W5_of_ne m ρ c b fun e => hb (Finset.mem_image.mpr ⟨3, Finset.mem_univ _, e.symm⟩)

/-! ## The proof data family, the thread state, the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- The region over the thread state: entered from every unscoped buffer at the entry contents, left with the
    result array at what the write-backs leave. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := entry_split (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V4 m ρ) c).trans ?_
    unfold Pipeline.ΦA
    iintro ⟨Hr, Hp⟩
    isplitl [Hp]; · iexact Hp
    isplitr; · iempintro
    iexact Hr
  hexit c := by
    have hjoin := exit_join (V4 m ρ) c (V5 m ρ c) ((pdats m ρ 0 c).arrAt · cfg0.N) (hF5 m ρ c) (hrest5 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The boundaries read: the arguments end as launched; the padded arrays; the slice -/

theorem W6_arg0 (c : Dev nD) : W6 m ρ c (Proc.devRef .tc main_arg0) = m ((c : Thread nD τ).loc main_arg0) := by
  have e1 : W6 m ρ c (Proc.devRef .tc main_arg0) = W5 m ρ c (Proc.devRef .tc main_arg0) := by
    show StableHlo.after hostOps1 (W5 m ρ c) (Proc.devRef .tc main_arg0) = _
    dsimp only [hostOps1]; after_results
  rw [e1, W5_of_ne m ρ c main_arg0 (by decide)]
  show StableHlo.after hostOps0_3 (StableHlo.after hostOps0_2 (StableHlo.after hostOps0_1 (StableHlo.after hostOps0 (W0 m ρ c)))) (Proc.devRef .tc main_arg0) = _
  dsimp only [hostOps0, hostOps0_1, hostOps0_2, hostOps0_3]; after_results
  try rfl

theorem W6_arg1 (c : Dev nD) : W6 m ρ c (Proc.devRef .tc main_arg1) = m ((c : Thread nD τ).loc main_arg1) := by
  have e1 : W6 m ρ c (Proc.devRef .tc main_arg1) = W5 m ρ c (Proc.devRef .tc main_arg1) := by
    show StableHlo.after hostOps1 (W5 m ρ c) (Proc.devRef .tc main_arg1) = _
    dsimp only [hostOps1]; after_results
  rw [e1, W5_of_ne m ρ c main_arg1 (by decide)]
  show StableHlo.after hostOps0_3 (StableHlo.after hostOps0_2 (StableHlo.after hostOps0_1 (StableHlo.after hostOps0 (W0 m ρ c)))) (Proc.devRef .tc main_arg1) = _
  dsimp only [hostOps0, hostOps0_1, hostOps0_2, hostOps0_3]; after_results
  try rfl

theorem W6_arg2 (c : Dev nD) : W6 m ρ c (Proc.devRef .tc main_arg2) = m ((c : Thread nD τ).loc main_arg2) := by
  have e1 : W6 m ρ c (Proc.devRef .tc main_arg2) = W5 m ρ c (Proc.devRef .tc main_arg2) := by
    show StableHlo.after hostOps1 (W5 m ρ c) (Proc.devRef .tc main_arg2) = _
    dsimp only [hostOps1]; after_results
  rw [e1, W5_of_ne m ρ c main_arg2 (by decide)]
  show StableHlo.after hostOps0_3 (StableHlo.after hostOps0_2 (StableHlo.after hostOps0_1 (StableHlo.after hostOps0 (W0 m ρ c)))) (Proc.devRef .tc main_arg2) = _
  dsimp only [hostOps0, hostOps0_1, hostOps0_2, hostOps0_3]; after_results
  try rfl

/-- The result is the first 10000 rows of what the region left. -/
theorem W6_v3 (c : Dev nD) : W6 m ρ c (Proc.devRef .tc main_v3)
    = extractStridedSlice S10000x64 ![0, 0] (W5 m ρ c (Proc.devRef .tc main_v2)) slices_S10240x64_S10000x64_0_0 := by
  show StableHlo.after hostOps1 (W5 m ρ c) (Proc.devRef .tc main_v3) = _
  dsimp only [hostOps1]; after_results
  try rfl

/-- The region finds `x` padded with 240 rows of the converted integer zero, -/
theorem V4_v0 (c : Dev nD) : V4 m ρ c main_v0
    = pad S10240x64 ![0, 0] ![240, 0] ![0, 0] (m ((c : Thread nD τ).loc main_arg1)) (sitofp .f32 (constantI S_ 32 0#32)) pads_S10000x64_S10240x64_02400_000 h_S_ := by
  show StableHlo.after hostOps0_3 (StableHlo.after hostOps0_2 (StableHlo.after hostOps0_1 (StableHlo.after hostOps0 (W0 m ρ c)))) (Proc.devRef .tc main_v0) = _
  dsimp only [hostOps0, hostOps0_1, hostOps0_2, hostOps0_3]; after_results
  try rfl

/-- and `A` padded with 240 rows and 240 columns of it. -/
theorem V4_v1 (c : Dev nD) : V4 m ρ c main_v1
    = pad S10240x10240 ![0, 0] ![240, 240] ![0, 0] (m ((c : Thread nD τ).loc main_arg2)) (sitofp .f32 (constantI S_ 32 0#32)) pads_S10000x10000_S10240x10240_02400_02400 h_S_ := by
  show StableHlo.after hostOps0_3 (StableHlo.after hostOps0_2 (StableHlo.after hostOps0_1 (StableHlo.after hostOps0 (W0 m ρ c)))) (Proc.devRef .tc main_v1) = _
  dsimp only [hostOps0, hostOps0_1, hostOps0_2, hostOps0_3]; after_results
  try rfl

/-- THE FRAME: the program runs to the end, nothing faulting, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c _ (mem_uc main_arg0 (by decide))).trans (W6_arg0 m ρ c),
      (h c _ (mem_uc main_arg1 (by decide))).trans (W6_arg1 m ρ c),
      (h c _ (mem_uc main_arg2 (by decide))).trans (W6_arg2 m ρ c)⟩) (run_all m ρ)

end Cert.Kernel.Hand

end
-- ==== Proof.KIBody.lean ====
/-
  The kernel body of the blocked product, run once per case of its two branches.

  The grid is 4 row blocks by 8 reduction steps; point `t` has reduction step `t % 8`.  At step 0 the body first
  clears the accumulator; at every step it adds the product of the current `A` block (2560 × 1280) with the current
  block of `x` rows (1280 × 64) to the accumulator; at step 7 it also writes the output block
  `1 − 0.1·xi − 0.01·rowsum(xi · acc)`.  Every load and store goes through the whole buffer, so each buffer ends at
  the payload of the last store into it.
-/
import proofs.«160787_j30923764531786_1_alg».proof.Proof.Gen.KernelIdeal.Launch
import proofs.«160787_j30923764531786_1_alg».proof.Proof.Gen.KernelIdeal.Skeleton
import proofs.«160787_j30923764531786_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first reduction step": the condition of the accumulator's reset. -/
abbrev cond1 (i : grid0.Coords) : Prop := (Scalar.cmpi .ne (Scalar.extui (Scalar.cmpi .eq (BitVec.ofNat 32 (i 1).val) 0#32)) 0#32) = 1#1
/-- "This is the last reduction step": the condition of the output's store. -/
abbrev cond2 (i : grid0.Coords) : Prop := k0_cond2 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ t.val % 8 = 7 :=
  (by decide +kernel : ∀ t : Fin grid0.N, cond2 (grid0.coords t) ↔ t.val % 8 = 7)

/-- The input windows are never idle. -/
theorem live0 : ∀ i, cfg0.idle 0 i = false := fun _ => rfl
theorem live1 : ∀ i, cfg0.idle 1 i = false := fun _ => rfl
theorem live2 : ∀ i, cfg0.idle 2 i = false := fun _ => rfl
/-- The output window is idle, and not written back, at every step but the last; live at the last. -/
theorem idle3 : ∀ t : Fin cfg0.N, ¬ t.val % 8 = 7 → cfg0.idle 3 (grid0.coords t) = true := by decide +kernel
theorem noFlush3 : ∀ t : Fin cfg0.N, ¬ t.val % 8 = 7 → (cfg0.win 3).flush t = false := by decide +kernel
theorem live3 : ∀ t : Fin cfg0.N, t.val % 8 = 7 → cfg0.idle 3 (grid0.coords t) = false := by decide +kernel

/-- Zero offsets, however spelt. -/
theorem hz2 : (![0, 0] : Fin 2 → ℕ) = fun _ => 0 := by funext a; fin_cases a <;> rfl

/-- A list of stores whose LAST one goes through the whole buffer covers the buffer. -/
theorem cover_head {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set :=
  ⟨_, List.mem_cons_self .., View.mem_set_unit_zero h inb y⟩

/-- The scratch accumulator as a memref. -/
abbrev scM : Memref sig .tc .vmem S2560x64 .f32 := Memref.whole cc0_scratch0

/-- The region's own invariant: the accumulator at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The body's triple, case by case -/

section Triples
variable (c : Dev nD) (i : grid0.Coords) (arg2 : Memref sig .tc .vmem S2560x1280 .f32) (harg2 : arg2.IsWhole) (arg3 : Memref sig .tc .vmem S1280x64 .f32) (harg3 : arg3.IsWhole) (arg4 : Memref sig .tc .vmem S2560x64 .f32) (harg4 : arg4.IsWhole) (arg5 : Memref sig .tc .vmem S2560x64 .f32) (harg5 : arg5.IsWhole) (arg6 : Memref sig .tc .vmem S2560x64 .f32) (harg6 : arg6.IsWhole)
  (x0 : Vec F S2560x1280 .f32) (x1 : Vec F S1280x64 .f32) (x2 : Vec F S2560x64 .f32)

set_option maxHeartbeats 1000000 in
/-- First reduction step: whatever the accumulator held, it ends at the first product added to zero; the output
    buffer is handed back as found. -/
theorem run_first (hc1 : cond1 i) (hc2 : ¬cond2 i) (d3 : Vec F S2560x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ (∃ s, owns (c : Thread nD τ) arg6 fullShare s)
        ∗ (iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare (k0_pay2 x0 x1 (k0_pay1 (F := F)))) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%s, %fs, -, HS⟩, Hk⟩
  subst hf0; subst hf1; subst hf2; subst hf3
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists _; isplitr
  swap; · iexact HS
  ipureintro
  sl_unfold_run_names
  rw [View.read_writes_eq_canon _ _ _ (fun y => cover_head hz2 inb_S2560x64_S2560x64_0_0 _ _ y),
    View.canon_cons_unit_zero hz2, View.readCov_unit_zero (S := S2560x64) arg6.view hz2]
  simp only [View.readAt_eq_ld, View.ld_unit_zero (S := S2560x1280) hz2, View.ld_unit_zero (S := S1280x64) hz2, View.ld_unit_zero (S := S2560x64) hz2]

set_option maxHeartbeats 1000000 in
/-- A middle reduction step: the accumulator ends at what it held plus this step's product; the output buffer is
    handed back as found. -/
theorem run_mid (hc1 : ¬cond1 i) (hc2 : ¬cond2 i) (d3 : Vec F S2560x64 .f32) (s : Vec F S2560x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare (k0_pay2 x0 x1 s)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists _; isplitr
  swap; · iexact HS
  ipureintro
  sl_unfold_run_names
  rw [View.read_writes_eq_canon _ _ _ (fun y => cover_head hz2 inb_S2560x64_S2560x64_0_0 _ _ y),
    View.canon_cons_unit_zero hz2]
  simp only [View.readAt_eq_ld, View.ld_unit_zero (S := S2560x1280) hz2, View.ld_unit_zero (S := S1280x64) hz2, View.ld_unit_zero (S := S2560x64) hz2]

set_option maxHeartbeats 1000000 in
/-- The last reduction step: the accumulator ends at what it held plus this step's product, and the output buffer,
    whatever it held, at the output formula of this row block of `x` and the finished accumulator. -/
theorem run_last (hc1 : ¬cond1 i) (hc2 : cond2 i) (s : Vec F S2560x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2 ∗ owns (c : Thread nD τ) arg5 fullShare (k0_pay3 x2 (k0_pay2 x0 x1 s)) ∗ owns (c : Thread nD τ) arg6 fullShare (k0_pay2 x0 x1 s)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc1 | exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr
    swap; · iexact H3
    ipureintro
    sl_unfold_run_names
    rw [View.read_writes_eq_canon _ _ _ (fun y => cover_head hz2 inb_S2560x64_S2560x64_0_0 _ _ y),
      View.canon_cons_unit_zero hz2]
    simp only [View.readAt_eq_ld, View.ld_unit_zero (S := S2560x1280) hz2, View.ld_unit_zero (S := S1280x64) hz2, View.ld_unit_zero (S := S2560x64) hz2, View.readCov_unit_zero (S := S2560x64) arg6.view hz2]
  iexists _; isplitr
  swap; · iexact HS
  ipureintro
  sl_unfold_run_names
  rw [View.read_writes_eq_canon _ _ _ (fun y => cover_head hz2 inb_S2560x64_S2560x64_0_0 _ _ y),
    View.canon_cons_unit_zero hz2]
  simp only [View.readAt_eq_ld, View.ld_unit_zero (S := S2560x1280) hz2, View.ld_unit_zero (S := S1280x64) hz2, View.ld_unit_zero (S := S2560x64) hz2]

end Triples

end Cert.KernelIdeal.Hand

end
-- ==== Proof.KIFrame.lean ====
/-
  The run of the whole program: host operations (two zero paddings), the blocked-product region, one host slice.

  The region's proof data names, point by point, what the scratch accumulator holds (the running sum of the block
  products of the current row block) and, at the last reduction step of a row block, what is written back for it.
  The padded `x` is read by two windows (the reduction's rows and the output's rows): the two hold its buffer at
  complementary half shares, and neither writes it.
-/
import proofs.«160787_j30923764531786_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region
-- the TensorCore's buffer contents when the region is entered
variable (V : (c : Dev nD) → (b : Ref sig .tc) → Buf (Elt F) ((c : Thread nD τ).loc b))

/-! ## The windows' blocks and the accumulator -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the accumulator holds after point `n`: at the first reduction step of a row block the first block
    product added to zero, afterwards the previous contents plus this step's product. -/
def accAt (c : Dev nD) : (n : ℕ) → n < cfg0.N → Vec F S2560x64 .f32
  | 0, hn => k0_pay2 (iblk V c 0 ⟨0, hn⟩) (iblk V c 1 ⟨0, hn⟩) (k0_pay1 (F := F))
  | n + 1, hn =>
    if (n + 1) % 8 = 0 then k0_pay2 (iblk V c 0 ⟨n + 1, hn⟩) (iblk V c 1 ⟨n + 1, hn⟩) (k0_pay1 (F := F))
    else k0_pay2 (iblk V c 0 ⟨n + 1, hn⟩) (iblk V c 1 ⟨n + 1, hn⟩) (accAt c n (Nat.lt_of_succ_lt hn))

theorem accAt_first (c : Dev nD) (t : Fin cfg0.N) (h : t.val % 8 = 0) :
    accAt V c t.val t.isLt = k0_pay2 (iblk V c 0 t) (iblk V c 1 t) (k0_pay1 (F := F)) := by
  obtain ⟨n, hn⟩ := t
  cases n with
  | zero => rfl
  | succ n => exact if_pos h

theorem accAt_step (c : Dev nD) (t : Fin cfg0.N) (h : ¬ t.val % 8 = 0) :
    accAt V c t.val t.isLt = k0_pay2 (iblk V c 0 t) (iblk V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The region's invariant before point `n`: at the start the accumulator at anything, afterwards at what the
    point before left; beside it the generator register at some state. -/
def PhiS (c : Dev nD) : (n : ℕ) → n ≤ cfg0.N → sProp 𝕄
  | 0, _ => Pipeline.ΦA spec0 c
  | n + 1, hn => iprop(iprop(owns (c : Thread nD τ) scM fullShare (accAt V c n hn)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn)) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega))) ∗ (∃ r, prngReg c r)) := by
  cases n with
  | zero => exact absurd rfl hz
  | succ n => rfl

/-! ## The proof data -/

/-- The region's proof data on core `c`: the arrays as the region finds them; after the body each input's buffer at
    its block, the output's at the output formula of this row block of `x` and the accumulator; the padded `x`
    held by its two reading windows at the two halves of the full share. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (iblk V c 2 t) (accAt V c t.val t.isLt)
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = k0_pay3 (iblk V c 2 t) (accAt V c t.val t.isLt) := by dsimp only [dat0]

/-- Each input's current staging buffer holds its block at every point, fetched there or not. -/
theorem before0 (c : Dev nD) (t : Fin cfg0.N) (d) : (dat0 V c).before 0 t d = iblk V c 0 t :=
  ((dat0 V c).before_in_eq_fetched 0 rfl live0 (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat0 V c).before 1 t d = iblk V c 1 t :=
  ((dat0 V c).before_in_eq_fetched 1 rfl live1 (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat0 V c).before 2 t d = iblk V c 2 t :=
  ((dat0 V c).before_in_eq_fetched 2 rfl live2 (fun _ _ _ => rfl) (fun t => by rw [after2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point, by the case its reduction step selects. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from rfl, after0,
    show (dat0 V c).leavesExact 1 t = owns (c : Thread nD τ) (st0_1 t) fullShare ((dat0 V c).after 1 t) from rfl, after1,
    show (dat0 V c).leavesExact 2 t = owns (c : Thread nD τ) (st0_2 t) fullShare ((dat0 V c).after 2 t) from rfl, after2]
  by_cases h7 : t.val % 8 = 7
  · have h0 : ¬ t.val % 8 = 0 := by omega
    have hz : t.val ≠ 0 := fun e => by rw [e] at h7; exact absurd h7 (by decide)
    rw [show (dat0 V c).leavesExact 3 t = owns (c : Thread nD τ) (st0_3 t) fullShare ((dat0 V c).after 3 t) from by
      unfold Dat.leavesExact; rw [live3 t h7], after3, accAt_step V c t h0]
    rw [PhiS_castSucc V c t, PhiS_pos V c _ _ hz]
    iintro ⟨⟨HS, Hg⟩, Ho, ⟨%d0, H0⟩, ⟨%d1, H1⟩, ⟨%d2, H2⟩, ⟨%d3, H3⟩⟩
    iapply (run_last c (grid0.coords t) _ _ _ _ _ _ _ _ _ _ (iblk V c 0 t) (iblk V c 1 t) (iblk V c 2 t)
      (fun h => h0 ((hcond1 t).mp h)) ((hcond2 t).mpr h7) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexact H3
  · rw [Dat.leavesExact_idle (dat0 V c) 3 t (idle3 t h7) (noFlush3 t h7)]
    by_cases h0 : t.val % 8 = 0
    · rw [accAt_first V c t h0]
      have hrun := fun (d3 : Vec F S2560x64 .f32) (K : PUnit → sProp 𝕄) =>
        run_first c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) scM (Memref.isWhole_whole _) (iblk V c 0 t) (iblk V c 1 t) (iblk V c 2 t)
          ((hcond1 t).mpr h0) (fun h => h7 ((hcond2 t).mp h)) d3 Set.univ K
      by_cases hz : t.val = 0
      · rw [PhiS_castSucc V c t, PhiS_zero V c _ _ hz, PhiA_eq]
        iintro ⟨⟨HS, Hg⟩, Ho, ⟨%d0, H0⟩, ⟨%d1, H1⟩, ⟨%d2, H2⟩, ⟨%d3, H3⟩⟩
        iapply (hrun _ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hg]
        · isplitl [HS]; · iexact HS
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨HS, Hg⟩, Ho, ⟨%d0, H0⟩, ⟨%d1, H1⟩, ⟨%d2, H2⟩, ⟨%d3, H3⟩⟩
        iapply (hrun _ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hg]
        · isplitl [HS]; · iexact HS
          iexact Hg
        isplitl [Ho]; · iexact Ho
        isplitl [H0]; · iexact H0
        isplitl [H1]; · iexact H1
        isplitl [H2]; · iexact H2
        iexists _; iexact H3
    · have hz : t.val ≠ 0 := fun e => h0 (by rw [e])
      rw [accAt_step V c t h0]
      rw [PhiS_castSucc V c t, PhiS_pos V c _ _ hz]
      iintro ⟨⟨HS, Hg⟩, Ho, ⟨%d0, H0⟩, ⟨%d1, H1⟩, ⟨%d2, H2⟩, ⟨%d3, H3⟩⟩
      iapply (run_mid c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) scM (Memref.isWhole_whole _) (iblk V c 0 t) (iblk V c 1 t) (iblk V c 2 t)
        (fun h => h0 ((hcond1 t).mp h)) (fun h => h7 ((hcond2 t).mp h)) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat0 (F := F) V c) (defs₀ (F := F)) Variants.none () Set.univ := fun t => by
  rw [bigSep_W0, bigSep_W0]
  exact sound_body V c t

/-- After any point but the first the invariant gives the region's own invariant back: the accumulator's named
    contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_eq]
  iintro ⟨HS, Hg⟩
  isplitl [HS]
  · iexists _; iexact HS
  iexact Hg

theorem hout0 (c : Dev nD) : (dat0 V c).Φ (Fin.last cfg0.N) ⊢ Pipeline.ΦA spec0 c :=
  Phi_out V c _ (by rw [Fin.val_last]; have : cfg0.N = 32 := N_0; omega)

end Region

/-! ## The padded `x` is read by two windows: splitting and rejoining its buffer -/

section Shared
variable (V : (c : Dev nD) → (b : Ref sig .tc) → Buf (Elt F) ((c : Thread nD τ).loc b))

/-- The three distinct buffers behind the four windows' arrays. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v1) ↦{fullShare} Vc main_v1) ∗ (((c : Thread nD τ).loc main_v0) ↦{fullShare} Vc main_v0) ∗ (((c : Thread nD τ).loc main_v2) ↦{fullShare} Vc main_v2)) := by
  unfold Pipeline.arrBufs; exact bigSep_eq_bigSepL_of_eq [main_v1, main_v0, main_v2] (by decide) (by decide) _

theorem share0 (c : Dev nD) : (dat0 V c).share 0 = fullShare := rfl
theorem share1 (c : Dev nD) : (dat0 V c).share 1 = fullShare.left := rfl
theorem share2 (c : Dev nD) : (dat0 V c).share 2 = fullShare.right := rfl
theorem share3 (c : Dev nD) : (dat0 V c).share 3 = fullShare := rfl

/-- The windows' arrays as whole buffers, window by window. -/
theorem arrays_form (c : Dev nD) (Fw : (w : Fin cfg0.W) → Buf (Elt F) ((cfg0.win w).arr.view.loc (c : Thread nD τ))) :
    ((dat0 V c).arrays Fw : sProp 𝕄)
      = iprop((((c : Thread nD τ).loc main_v1) ↦{fullShare} Fw 0) ∗ (((c : Thread nD τ).loc main_v0) ↦{fullShare.left} Fw 1)
          ∗ (((c : Thread nD τ).loc main_v0) ↦{fullShare.right} Fw 2) ∗ (((c : Thread nD τ).loc main_v2) ↦{fullShare} Fw 3)) := by
  unfold Dat.arrays
  rw [bigSep_W0, (arr_whole0 0).set_eq_univ, (arr_whole0 1).set_eq_univ, (arr_whole0 3).set_eq_univ,
    share0, share1, share2, share3]

/-- ENTRY: the unscoped buffers give the windows their arrays, the padded `x` halved between its two readers. -/
theorem entry_split (c : Dev nD) :
    (unscopedBufs c (V c) : sProp 𝕄) ⊢ iprop((dat0 V c).arrays (dat0 V c).A ∗ Pipeline.unscopedRest spec0 c (V c)) := by
  rw [Pipeline.unscopedBufs_split₀ cfgs (0 : Fin 1) (by decide) c (V c)]
  refine sep_mono ?_ .rfl
  rw [arrBufs_eq, arrays_form]
  iintro ⟨H1, H0, H2⟩
  ihave H0' := (pointsTo_share (PosShare.mem_left_op_right fullShare)).1 $$ H0
  icases H0' with ⟨Ha, Hb⟩
  isplitl [H1]; · iexact H1
  isplitl [Ha]; · iexact Ha
  isplitl [Hb]; · iexact Hb
  iexact H2

/-- EXIT: the arrays at contents `Fw` and the rest make the unscoped buffers at any valuation that reads `Fw` at
    the arrays and the entry contents elsewhere; the two halves of the padded `x` rejoin. -/
theorem exit_join (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w))
    (hrest : ∀ b, b ∉ Finset.univ.image (Pipeline.arrRef spec0) → V' b = V c b) :
    iprop((dat0 V c).arrays Fw ∗ Pipeline.unscopedRest spec0 c (V c)) ⊢ (unscopedBufs c V' : sProp 𝕄) := by
  rw [Pipeline.unscopedBufs_split₀ cfgs (0 : Fin 1) (by decide) c V']
  refine sep_mono ?_ (Entails.of_eq ?_)
  · rw [arrBufs_eq, arrays_form, hF 0, hF 1, hF 2, hF 3]
    iintro ⟨H1, Ha, Hb, H2⟩
    isplitl [H1]; · iexact H1
    isplitl [Ha Hb]
    · iapply (pointsTo_share (PosShare.mem_left_op_right fullShare)).2
      isplitl [Ha]; · iexact Ha
      iexact Hb
    iexact H2
  · unfold Pipeline.unscopedRest
    exact bigSep_congr fun b hb => by rw [hrest b (Finset.mem_sdiff.mp hb).2]

end Shared

/-! # The run: @main's segments from the launch to the return -/

/-- Core `c`'s buffers at launch, and after each stretch of host operations before the region. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
/-- The region's entry contents read at the TensorCore's references. -/
abbrev V4 : (c : Dev nD) → (b : Ref sig .tc) → Buf (Elt F) ((c : Thread nD τ).loc b) := fun c b => W4 m ρ c b
/-- At the region's exit: the result array at what the write-backs leave, every other buffer as entered. -/
def W5 (c : Dev nD) : Valuation τ sig (Elt F) :=
  Function.update (W4 m ρ c) (Proc.devRef .tc main_v2) ((dat0 (V4 m ρ) c).arrAt 3 cfg0.N)
abbrev V5 : (c : Dev nD) → (b : Ref sig .tc) → Buf (Elt F) ((c : Thread nD τ).loc b) := fun c b => W5 m ρ c b
/-- After the slice. -/
abbrev W6 : Dev nD → Valuation τ sig (Elt F) := fun c => StableHlo.after hostOps1 (W5 m ρ c)

theorem W5_out (c : Dev nD) : W5 m ρ c (Proc.devRef .tc main_v2) = (dat0 (V4 m ρ) c).arrAt 3 cfg0.N := by
  unfold W5; exact Function.update_self ..
theorem W5_of_ne (c : Dev nD) (b : Ref sig .tc) (hb : b ≠ main_v2) : W5 m ρ c (Proc.devRef .tc b) = W4 m ρ c (Proc.devRef .tc b) := by
  unfold W5; exact Function.update_of_ne (StableHlo.devRef_ne_of_ne hb) ..

theorem hF5 (c : Dev nD) (w : Fin cfg0.W) : (dat0 (V4 m ρ) c).arrAt w cfg0.N = V5 m ρ c (Pipeline.arrRef spec0 w) := by
  match w with
  | ⟨0, _⟩ => exact ((dat0 (V4 m ρ) c).arrAt_in 0 rfl _).trans ((A_eq (V4 m ρ) c 0).trans (W5_of_ne m ρ c main_v1 (by decide)).symm)
  | ⟨1, _⟩ => exact ((dat0 (V4 m ρ) c).arrAt_in 1 rfl _).trans ((A_eq (V4 m ρ) c 1).trans (W5_of_ne m ρ c main_v0 (by decide)).symm)
  | ⟨2, _⟩ => exact ((dat0 (V4 m ρ) c).arrAt_in 2 rfl _).trans ((A_eq (V4 m ρ) c 2).trans (W5_of_ne m ρ c main_v0 (by decide)).symm)
  | ⟨3, _⟩ => exact (W5_out m ρ c).symm
theorem hrest5 (c : Dev nD) : ∀ b, b ∉ Finset.univ.image (Pipeline.arrRef spec0) → V5 m ρ c b = V4 m ρ c b :=
  fun b hb => W5_of_ne m ρ c b fun e => hb (Finset.mem_image.mpr ⟨3, Finset.mem_univ _, e.symm⟩)

/-! ## The proof data family, the thread state, the segments -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- The region over the thread state: entered from every unscoped buffer at the entry contents, left with the
    result array at what the write-backs leave. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := entry_split (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V4 m ρ) c).trans ?_
    unfold Pipeline.ΦA
    iintro ⟨Hr, Hp⟩
    isplitl [Hp]; · iexact Hp
    isplitr; · iempintro
    iexact Hr
  hexit c := by
    have hjoin := exit_join (V4 m ρ) c (V5 m ρ c) ((pdats m ρ 0 c).arrAt · cfg0.N) (hF5 m ρ c) (hrest5 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-! ## The boundaries read: the arguments end as launched; the padded arrays; the slice -/

theorem W6_arg0 (c : Dev nD) : W6 m ρ c (Proc.devRef .tc main_arg0) = m ((c : Thread nD τ).loc main_arg0) := by
  have e1 : W6 m ρ c (Proc.devRef .tc main_arg0) = W5 m ρ c (Proc.devRef .tc main_arg0) := by
    show StableHlo.after hostOps1 (W5 m ρ c) (Proc.devRef .tc main_arg0) = _
    dsimp only [hostOps1]; after_results
  rw [e1, W5_of_ne m ρ c main_arg0 (by decide)]
  show StableHlo.after hostOps0_3 (StableHlo.after hostOps0_2 (StableHlo.after hostOps0_1 (StableHlo.after hostOps0 (W0 m ρ c)))) (Proc.devRef .tc main_arg0) = _
  dsimp only [hostOps0, hostOps0_1, hostOps0_2, hostOps0_3]; after_results
  try rfl

theorem W6_arg1 (c : Dev nD) : W6 m ρ c (Proc.devRef .tc main_arg1) = m ((c : Thread nD τ).loc main_arg1) := by
  have e1 : W6 m ρ c (Proc.devRef .tc main_arg1) = W5 m ρ c (Proc.devRef .tc main_arg1) := by
    show StableHlo.after hostOps1 (W5 m ρ c) (Proc.devRef .tc main_arg1) = _
    dsimp only [hostOps1]; after_results
  rw [e1, W5_of_ne m ρ c main_arg1 (by decide)]
  show StableHlo.after hostOps0_3 (StableHlo.after hostOps0_2 (StableHlo.after hostOps0_1 (StableHlo.after hostOps0 (W0 m ρ c)))) (Proc.devRef .tc main_arg1) = _
  dsimp only [hostOps0, hostOps0_1, hostOps0_2, hostOps0_3]; after_results
  try rfl

theorem W6_arg2 (c : Dev nD) : W6 m ρ c (Proc.devRef .tc main_arg2) = m ((c : Thread nD τ).loc main_arg2) := by
  have e1 : W6 m ρ c (Proc.devRef .tc main_arg2) = W5 m ρ c (Proc.devRef .tc main_arg2) := by
    show StableHlo.after hostOps1 (W5 m ρ c) (Proc.devRef .tc main_arg2) = _
    dsimp only [hostOps1]; after_results
  rw [e1, W5_of_ne m ρ c main_arg2 (by decide)]
  show StableHlo.after hostOps0_3 (StableHlo.after hostOps0_2 (StableHlo.after hostOps0_1 (StableHlo.after hostOps0 (W0 m ρ c)))) (Proc.devRef .tc main_arg2) = _
  dsimp only [hostOps0, hostOps0_1, hostOps0_2, hostOps0_3]; after_results
  try rfl

/-- The result is the first 10000 rows of what the region left. -/
theorem W6_v3 (c : Dev nD) : W6 m ρ c (Proc.devRef .tc main_v3)
    = extractStridedSlice S10000x64 ![0, 0] (W5 m ρ c (Proc.devRef .tc main_v2)) slices_S10240x64_S10000x64_0_0 := by
  show StableHlo.after hostOps1 (W5 m ρ c) (Proc.devRef .tc main_v3) = _
  dsimp only [hostOps1]; after_results
  try rfl

/-- The region finds `x` padded with 240 rows of the converted integer zero, -/
theorem V4_v0 (c : Dev nD) : V4 m ρ c main_v0
    = pad S10240x64 ![0, 0] ![240, 0] ![0, 0] (m ((c : Thread nD τ).loc main_arg1)) (sitofp .f32 (constantI S_ 32 0#32)) pads_S10000x64_S10240x64_02400_000 h_S_ := by
  show StableHlo.after hostOps0_3 (StableHlo.after hostOps0_2 (StableHlo.after hostOps0_1 (StableHlo.after hostOps0 (W0 m ρ c)))) (Proc.devRef .tc main_v0) = _
  dsimp only [hostOps0, hostOps0_1, hostOps0_2, hostOps0_3]; after_results
  try rfl

/-- and `A` padded with 240 rows and 240 columns of it. -/
theorem V4_v1 (c : Dev nD) : V4 m ρ c main_v1
    = pad S10240x10240 ![0, 0] ![240, 240] ![0, 0] (m ((c : Thread nD τ).loc main_arg2)) (sitofp .f32 (constantI S_ 32 0#32)) pads_S10000x10000_S10240x10240_02400_02400 h_S_ := by
  show StableHlo.after hostOps0_3 (StableHlo.after hostOps0_2 (StableHlo.after hostOps0_1 (StableHlo.after hostOps0 (W0 m ρ c)))) (Proc.devRef .tc main_v1) = _
  dsimp only [hostOps0, hostOps0_1, hostOps0_2, hostOps0_3]; after_results
  try rfl

/-- THE FRAME: the program runs to the end, nothing faulting, and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c _ (mem_uc main_arg0 (by decide))).trans (W6_arg0 m ρ c),
      (h c _ (mem_uc main_arg1 (by decide))).trans (W6_arg1 m ρ c),
      (h c _ (mem_uc main_arg2 (by decide))).trans (W6_arg2 m ρ c)⟩) (run_all m ρ)

end Cert.KernelIdeal.Hand

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.KIPayload.lean ====
/-
  The kernel body's three stored values, read at an index at the ideal instance.

  A grid point of the kernel holds a block of 2560 rows.  It stores into its accumulator, at the first
  reduction step, zero; at every reduction step, the accumulator plus the product of a 2560 x 1280 block of `A`
  with a 1280 x 64 block of `x` (the roundings to bf16 on the way into the product are the identity on the
  extended reals); and it stores into its output block, at the last reduction step,
  `(one - b * xi) - r * (row sum over the 64 lanes of xi * acc)`, the row sum kept as a column and spread back
  over the lanes.  Each lemma reads one of these at the index with coordinates `(p, q)`.
-/
import proofs.«160787_j30923764531786_1_alg».proof.Proof.Gen.KernelIdeal.Skeleton
import proofs.«160787_j30923764531786_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- The value stored at the first reduction step is zero everywhere. -/
theorem pay1_apply (y : S2560x64.Idx) : k0_pay1 (F := Ideal) y = 0 := by
  unfold k0_pay1
  rw [shapeCast_self]
  exact Ideal.ofBits_zero_f32

/-! The product's operand indices: the left operand is read at the result's row and the contracted position, the
    right operand at the contracted position and the result's column. -/

theorem lhs_0 (i : S2560x64.Idx) (c : dot_S2560x1280_S1280x64_S2560x64_1_0_0_1_n_n.contr.Idx) : (dot_S2560x1280_S1280x64_S2560x64_1_0_0_1_n_n.lhsIdx i c 0).val = (i 0).val := by
  unfold DotDims.lhsIdx
  rw [dif_neg (show ¬(0 : Fin S2560x1280.rank) ∈ dot_S2560x1280_S1280x64_S2560x64_1_0_0_1_n_n.lhsBatch by decide), dif_pos (show (0 : Fin S2560x1280.rank) ∈ dot_S2560x1280_S1280x64_S2560x64_1_0_0_1_n_n.lhsNonContracting by decide)]
  rfl
theorem lhs_1 (i : S2560x64.Idx) (c : dot_S2560x1280_S1280x64_S2560x64_1_0_0_1_n_n.contr.Idx) : (dot_S2560x1280_S1280x64_S2560x64_1_0_0_1_n_n.lhsIdx i c 1).val = (c ⟨0, by decide⟩).val :=
  dot_S2560x1280_S1280x64_S2560x64_1_0_0_1_n_n.lhsIdx_val_of_single rfl i c
theorem rhs_0 (i : S2560x64.Idx) (c : dot_S2560x1280_S1280x64_S2560x64_1_0_0_1_n_n.contr.Idx) : (dot_S2560x1280_S1280x64_S2560x64_1_0_0_1_n_n.rhsIdx i c 0).val = (c ⟨0, by decide⟩).val :=
  dot_S2560x1280_S1280x64_S2560x64_1_0_0_1_n_n.rhsIdx_val_of_single rfl i c
theorem rhs_1 (i : S2560x64.Idx) (c : dot_S2560x1280_S1280x64_S2560x64_1_0_0_1_n_n.contr.Idx) : (dot_S2560x1280_S1280x64_S2560x64_1_0_0_1_n_n.rhsIdx i c 1).val = (i 1).val := by
  unfold DotDims.rhsIdx
  rw [dif_neg (show ¬(1 : Fin S1280x64.rank) ∈ dot_S2560x1280_S1280x64_S2560x64_1_0_0_1_n_n.rhsBatch by decide), dif_pos (show (1 : Fin S1280x64.rank) ∈ dot_S2560x1280_S1280x64_S2560x64_1_0_0_1_n_n.rhsNonContracting by decide)]
  rfl

/-- The product of the two blocks into the zero accumulator, at `(p, q)`: the sum over the 1280 contracted
    positions of the left block's row `p` times the right block's column `q`. -/
theorem matmul_apply (a : FVec Ideal S2560x1280 .bf16) (b : FVec Ideal S1280x64 .bf16) (p : Fin 2560) (q : Fin 64) :
    matmul dot_S2560x1280_S1280x64_S2560x64_1_0_0_1_n_n none a b (constant (F := Ideal) S2560x64 .f32 0x00000000#32) (ix2 p q)
      = ∑ j : Fin 1280, a (ix2 p j) * b (ix2 j q) := by
  refine (Ideal.matmul_constant_zero_apply dot_S2560x1280_S1280x64_S2560x64_1_0_0_1_n_n none a b (ix2 p q)).trans ?_
  rw [← Equiv.sum_comp (contrEquiv1 dot_S2560x1280_S1280x64_S2560x64_1_0_0_1_n_n 1280 rfl rfl).symm]
  refine Finset.sum_congr rfl fun k _ => ?_
  have hk := contrEquiv1_symm_val dot_S2560x1280_S1280x64_S2560x64_1_0_0_1_n_n 1280 rfl rfl k
  have el : dot_S2560x1280_S1280x64_S2560x64_1_0_0_1_n_n.lhsIdx (ix2 p q) ((contrEquiv1 dot_S2560x1280_S1280x64_S2560x64_1_0_0_1_n_n 1280 rfl rfl).symm k) = ix2 p k :=
    funext fun ax => Fin.ext (by
      match ax with
      | ⟨0, _⟩ => exact lhs_0 _ _
      | ⟨1, _⟩ => exact (lhs_1 _ _).trans hk)
  have er : dot_S2560x1280_S1280x64_S2560x64_1_0_0_1_n_n.rhsIdx (ix2 p q) ((contrEquiv1 dot_S2560x1280_S1280x64_S2560x64_1_0_0_1_n_n 1280 rfl rfl).symm k) = ix2 k q :=
    funext fun ax => Fin.ext (by
      match ax with
      | ⟨0, _⟩ => exact (rhs_0 _ _).trans hk
      | ⟨1, _⟩ => exact rhs_1 _ _)
  rw [el, er]

/-- The value stored at every reduction step, at `(p, q)`: the accumulator plus the blocks' product. -/
theorem pay2_apply (a : Vec Ideal S2560x1280 .f32) (b : Vec Ideal S1280x64 .f32) (s : Vec Ideal S2560x64 .f32) (p : Fin 2560) (q : Fin 64) :
    k0_pay2 (F := Ideal) a b s (ix2 p q) = s (ix2 p q) + ∑ j : Fin 1280, a (ix2 p j) * b (ix2 j q) := by
  unfold k0_pay2
  rw [shapeCast_self, shapeCast_self, shapeCast_self]
  refine (addf_apply _ _ _).trans ?_
  refine congrArg (s (ix2 p q) + ·) ?_
  exact matmul_apply _ _ p q

/-- The value stored at the last reduction step, at `(p, q)`: `(one - b * xi(p, q)) - r * Σ_{d'} xi(p, d') * acc(p, d')`. -/
theorem pay3_apply (xi acc : Vec Ideal S2560x64 .f32) (p : Fin 2560) (q : Fin 64) :
    k0_pay3 (F := Ideal) xi acc (ix2 p q)
      = (Ideal.ofBits .f32 0x3F800000#32 - Ideal.ofBits .f32 0x3DCCCCCD#32 * xi (ix2 p q))
        - Ideal.ofBits .f32 0x3C23D70A#32 * ∑ d' : Fin 64, xi (ix2 p d') * acc (ix2 p d') := by
  unfold k0_pay3
  rw [shapeCast_self]
  refine (subf_apply _ _ _).trans ?_
  refine congrArg₂ (· - ·) rfl ?_
  refine (Idealize.ShloMosaic.Keepdims.broadcastTo_a1_ab_apply _ _ p q).trans ?_
  refine (mulf_apply _ _ _).trans ?_
  refine congrArg₂ (· * ·) rfl ?_
  refine (Idealize.ShloMosaic.Keepdims.shapeCast_a_a1_apply _ _ p 0).trans ?_
  refine (Idealize.ShloMosaic.Keepdims.rowSum_apply (mulf (F := Ideal) xi acc) _ rfl p).trans ?_
  rfl

end Cert.KernelIdeal.Pay

end
-- ==== Proof.KIPadded.lean ====
/-
  The result of the blocked product as one function of the two PADDED arrays (10240 rows of `x`, 10240 × 10240 of
  `A`), with the arrays read at natural-number coordinates so that block offsets are plain arithmetic:
      (1 − 0.1·xp(r,d)) − 0.01 · Σ_{d'} xp(r,d') · (0 + Σ_{s<8} Σ_{j<1280} Ap(r, 1280 s + j) · xp(1280 s + j, d')).
-/
import proofs.«160787_j30923764531786_1_alg».proof.KernelIdeal
import Idealize.ShloMosaic.PureOps.Ideal
import Idealize.ShloMosaic.Lib.ValueIdx

noncomputable section

namespace Cert.KernelIdeal.Padded

open Cert.KernelIdeal Idealize.ShloMosaic Idealize.ShloMosaic.ValueIdx

/-- The padded `x` at row `r`, lane `d` (zero outside the array: never read there). -/
def xq (xp : S10240x64.Idx → EReal) (r d : ℕ) : EReal :=
  if h : r < 10240 ∧ d < 64 then xp (ix2 (⟨r, h.1⟩ : Fin 10240) (⟨d, h.2⟩ : Fin 64)) else 0

/-- The padded `A` at row `r`, column `j`. -/
def Aq (Ap : S10240x10240.Idx → EReal) (r j : ℕ) : EReal :=
  if h : r < 10240 ∧ j < 10240 then Ap (ix2 (⟨r, h.1⟩ : Fin 10240) (⟨j, h.2⟩ : Fin 10240)) else 0

/-- The result array as a function of the padded arrays. -/
def Gq (xp : S10240x64.Idx → EReal) (Ap : S10240x10240.Idx → EReal) : S10240x64.Idx → EReal := fun i =>
  (Ideal.ofBits .f32 0x3F800000#32 - Ideal.ofBits .f32 0x3DCCCCCD#32 * xq xp (i 0).val (i 1).val)
    - Ideal.ofBits .f32 0x3C23D70A#32 * ∑ d' : Fin 64, xq xp (i 0).val d'.val
        * (0 + ∑ s ∈ Finset.range 8, ∑ j : Fin 1280, Aq Ap (i 0).val (1280 * s + j.val) * xq xp (1280 * s + j.val) d'.val)

/-- `Gq` at an index whose coordinates are `r`, `d`. -/
theorem Gq_apply (xp : S10240x64.Idx → EReal) (Ap : S10240x10240.Idx → EReal) (i : S10240x64.Idx) (r d : ℕ)
    (h0 : (i 0).val = r) (h1 : (i 1).val = d) :
    Gq xp Ap i = (Ideal.ofBits .f32 0x3F800000#32 - Ideal.ofBits .f32 0x3DCCCCCD#32 * xq xp r d)
      - Ideal.ofBits .f32 0x3C23D70A#32 * ∑ d' : Fin 64, xq xp r d'.val
          * (0 + ∑ s ∈ Finset.range 8, ∑ j : Fin 1280, Aq Ap r (1280 * s + j.val) * xq xp (1280 * s + j.val) d'.val) := by
  subst h0; subst h1; rfl

end Cert.KernelIdeal.Padded

end
-- ==== Proof.Spec.lean ====
/-
  The specification: what both programs compute, as one function of the argument arrays, index by index.

  For `x : [10000, 64]` and `A : [10000, 10000]` over the extended reals, with the three f32 words
  `one = 0x3F800000`, `b = 0x3DCCCCCD` (the f32 nearest 1/10) and `r = 0x3C23D70A` (the f32 nearest 1/100)
  read as the extended reals they denote,

      G x A (i, d) = (one - b * x(i, d)) - r * Σ_{d' < 64} x(i, d') * (A · x)(i, d'),
      (A · x)(i, d') = Σ_{j < 10000} A(i, j) * x(j, d').

  The last term does not depend on the lane `d`: it is the row's interaction term, broadcast over the lanes.
  Only sums and products are used, in one fixed arrangement; no law that needs finiteness is applied here.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- Row `i`, lane `d` of the matrix product `A · x`: the sum over `j` of `A(i, j) * x(j, d)`. -/
def dotAx (x : (⟨2, ![10000, 64]⟩ : Shape).Idx → EReal) (A : (⟨2, ![10000, 10000]⟩ : Shape).Idx → EReal)
    (i : Fin 10000) (d : Fin 64) : EReal :=
  ∑ j : Fin 10000, A (ix2 i j) * x (ix2 j d)

/-- Row `i`'s interaction term: the sum over the lanes `d'` of `x(i, d') * (A · x)(i, d')`. -/
def rowTerm (x : (⟨2, ![10000, 64]⟩ : Shape).Idx → EReal) (A : (⟨2, ![10000, 10000]⟩ : Shape).Idx → EReal)
    (i : Fin 10000) : EReal :=
  ∑ d' : Fin 64, x (ix2 i d') * dotAx x A i d'

/-- The result array: `(one - b * x(i, d)) - r * rowTerm(i)` at row `i`, lane `d`. -/
def G (x : (⟨2, ![10000, 64]⟩ : Shape).Idx → EReal) (A : (⟨2, ![10000, 10000]⟩ : Shape).Idx → EReal) :
    (⟨2, ![10000, 64]⟩ : Shape).Idx → EReal := fun p =>
  (Ideal.ofBits .f32 0x3F800000#32 - Ideal.ofBits .f32 0x3DCCCCCD#32 * x p)
    - Ideal.ofBits .f32 0x3C23D70A#32 * rowTerm x A (p 0)

/-- The specification read at the index with coordinates `(i, d)`. -/
theorem G_apply (x : (⟨2, ![10000, 64]⟩ : Shape).Idx → EReal) (A : (⟨2, ![10000, 10000]⟩ : Shape).Idx → EReal)
    (i : Fin 10000) (d : Fin 64) :
    G x A (ix2 i d) = (Ideal.ofBits .f32 0x3F800000#32 - Ideal.ofBits .f32 0x3DCCCCCD#32 * x (ix2 i d))
      - Ideal.ofBits .f32 0x3C23D70A#32 * ∑ d' : Fin 64, x (ix2 i d') * dotAx x A i d' := rfl

/-- The same with the sum entered from the zero word, the form in which a sum into a zero accumulator is met. -/
theorem G_apply_zero (x : (⟨2, ![10000, 64]⟩ : Shape).Idx → EReal) (A : (⟨2, ![10000, 10000]⟩ : Shape).Idx → EReal)
    (i : Fin 10000) (d : Fin 64) :
    G x A (ix2 i d) = (Ideal.ofBits .f32 0x3F800000#32 - Ideal.ofBits .f32 0x3DCCCCCD#32 * x (ix2 i d))
      - Ideal.ofBits .f32 0x3C23D70A#32
        * (Ideal.ofBits .f32 0x00000000#32 + ∑ d' : Fin 64, x (ix2 i d') * dotAx x A i d') := by
  rw [Ideal.ofBits_zero_f32, zero_add]; rfl

end Cert.Spec

end
-- ==== Proof.LibPadRead.lean ====
/-
  The host's zero padding of a rank-2 array at the high end, read at an index.

  `stablehlo.pad` with no low and no interior padding keeps the operand in the leading corner of the result: the
  result at `(r, c)` is the operand at `(r, c)` when both coordinates are inside the operand's extents, and the
  padding value (the one element of a rank-zero operand) elsewhere.  When only the rows are padded the column
  is always inside.  The padding value of the programs met here is the integer zero converted to a float, which
  at the ideal instance is the extended real `0`.
-/
import Idealize.ShloMosaic.Lib.KernelVsHost
import Idealize.ShloMosaic.Lib.ValueIdx
import Idealize.ShloMosaic.Lib.Pipeline.Value
import Idealize.ShloMosaic.PureOps.Ideal.Laws

noncomputable section

namespace Idealize.ShloMosaic.PadRead

open Idealize.ShloMosaic Idealize.ShloMosaic.ValueIdx

variable {α : Type}

/-- An `[n0, n1]` array padded at the high end of both axes to `[m0, m1]`, read at `(r, c)`: the operand at `(r, c)`
    when `r < n0` and `c < n1`, the padding value otherwise. -/
theorem pad_high2_apply {n0 n1 m0 m1 h0 h1 : ℕ} (x : (⟨2, ![n0, n1]⟩ : Shape).Idx → α) {u : Shape} (v : u.Idx → α)
    (h : (⟨2, ![n0, n1]⟩ : Shape).Pads ![0, 0] ![h0, h1] ![0, 0] ⟨2, ![m0, m1]⟩) (hu : 0 < u.numel)
    (r : Fin m0) (c : Fin m1) :
    pad ⟨2, ![m0, m1]⟩ ![0, 0] ![h0, h1] ![0, 0] x v h hu (ix2 r c)
      = if hin : r.val < n0 ∧ c.val < n1 then x (ix2 ⟨r.val, hin.1⟩ ⟨c.val, hin.2⟩) else v (Shape.Idx.first hu) := by
  by_cases hin : r.val < n0 ∧ c.val < n1
  · rw [dif_pos hin]
    refine pad_apply_of_inside _ _ _ x v h hu (ix2 r c) (ix2 ⟨r.val, hin.1⟩ ⟨c.val, hin.2⟩) fun a => ?_
    match a with
    | ⟨0, _⟩ => show r.val = 0 + r.val * (0 + 1); omega
    | ⟨1, _⟩ => show c.val = 0 + c.val * (0 + 1); omega
  · rw [dif_neg hin]
    by_cases hr : r.val < n0
    · have hc : ¬ c.val < n1 := fun hc => hin ⟨hr, hc⟩
      refine pad_apply_of_not_inside _ _ _ x v h hu (ix2 r c) ⟨1, Nat.one_lt_two⟩ fun hh => hc ?_
      have h3 : (c.val - 0) / (0 + 1) < n1 := hh.2.2
      rw [Nat.sub_zero, Nat.zero_add, Nat.div_one] at h3
      exact h3
    · refine pad_apply_of_not_inside _ _ _ x v h hu (ix2 r c) ⟨0, Nat.zero_lt_two⟩ fun hh => hr ?_
      have h3 : (r.val - 0) / (0 + 1) < n0 := hh.2.2
      rw [Nat.sub_zero, Nat.zero_add, Nat.div_one] at h3
      exact h3

/-- An `[n0, n1]` array padded at the high end of the rows only, to `[m0, n1]`, read at `(r, c)`: the operand at
    `(r, c)` when `r < n0`, the padding value otherwise. -/
theorem pad_rows_apply {n0 n1 m0 h0 : ℕ} (x : (⟨2, ![n0, n1]⟩ : Shape).Idx → α) {u : Shape} (v : u.Idx → α)
    (h : (⟨2, ![n0, n1]⟩ : Shape).Pads ![0, 0] ![h0, 0] ![0, 0] ⟨2, ![m0, n1]⟩) (hu : 0 < u.numel)
    (r : Fin m0) (c : Fin n1) :
    pad ⟨2, ![m0, n1]⟩ ![0, 0] ![h0, 0] ![0, 0] x v h hu (ix2 r c)
      = if hr : r.val < n0 then x (ix2 ⟨r.val, hr⟩ c) else v (Shape.Idx.first hu) := by
  rw [pad_high2_apply x v h hu r c]
  by_cases hr : r.val < n0
  · rw [dif_pos (⟨hr, c.isLt⟩ : r.val < n0 ∧ c.val < n1), dif_pos hr]
  · rw [dif_neg (fun hh : r.val < n0 ∧ c.val < n1 => hr hh.1), dif_neg hr]

/-- The instance met for the narrow operand: 10000 rows of 64 lanes padded to 10240 rows. -/
theorem pad_10000x64_apply (x : (⟨2, ![10000, 64]⟩ : Shape).Idx → α) {u : Shape} (v : u.Idx → α)
    (h : (⟨2, ![10000, 64]⟩ : Shape).Pads ![0, 0] ![240, 0] ![0, 0] ⟨2, ![10240, 64]⟩) (hu : 0 < u.numel)
    (r : Fin 10240) (d : Fin 64) :
    pad ⟨2, ![10240, 64]⟩ ![0, 0] ![240, 0] ![0, 0] x v h hu (ix2 r d)
      = if hr : r.val < 10000 then x (ix2 ⟨r.val, hr⟩ d) else v (Shape.Idx.first hu) :=
  pad_rows_apply x v h hu r d

/-- The instance met for the square operand: 10000 x 10000 padded to 10240 x 10240. -/
theorem pad_10000x10000_apply (A : (⟨2, ![10000, 10000]⟩ : Shape).Idx → α) {u : Shape} (v : u.Idx → α)
    (h : (⟨2, ![10000, 10000]⟩ : Shape).Pads ![0, 0] ![240, 240] ![0, 0] ⟨2, ![10240, 10240]⟩) (hu : 0 < u.numel)
    (r j : Fin 10240) :
    pad ⟨2, ![10240, 10240]⟩ ![0, 0] ![240, 240] ![0, 0] A v h hu (ix2 r j)
      = if hin : r.val < 10000 ∧ j.val < 10000 then A (ix2 ⟨r.val, hin.1⟩ ⟨j.val, hin.2⟩) else v (Shape.Idx.first hu) :=
  pad_high2_apply A v h hu r j

/-- The padding value: the integer zero, converted to a float, is the extended real `0` at every index. -/
theorem sitofp_constantI_zero {s : Shape} {φ : FTy} (i : s.Idx) :
    (sitofp (F := Ideal) φ (constantI s 32 0#32)) i = 0 :=
  sitofp_zero

end Idealize.ShloMosaic.PadRead

end
-- ==== Proof.LibPadSum.lean ====
/-
  A sum over an index range padded with zeros and cut into equal blocks.

  An array `f` of `N` entries padded with zeros to `P = K * B` entries reads, at `n < P`, `f n` when `n < N` and `0`
  otherwise.  The padding adds nothing to a sum, a product of two padded arrays is the padded product
  (`0 * 0 = 0`), and summing block by block — `K` blocks of `B` consecutive entries, entry `j` of block `k`
  being entry `B * k + j` — is summing over the whole range once, because `(k, j) ↦ B * k + j` is a bijection
  from the pairs onto the range.  Only commutativity and associativity of the sum are used, so the lemmas hold
  in any additive commutative monoid with a product for which `0 * 0 = 0`; in particular on the extended
  reals, with no finiteness assumed.
-/
import Mathlib.Data.EReal.Inv
import Mathlib.Algebra.BigOperators.Fin
import Mathlib.Logic.Equiv.Fin.Basic

noncomputable section

namespace Idealize.ShloMosaic.PadSum

open scoped BigOperators

variable {M : Type*}

/-- The array `f` of `N` entries continued by zeros, read at a natural number. -/
def padNat [Zero M] {N : ℕ} (f : Fin N → M) (n : ℕ) : M :=
  if h : n < N then f ⟨n, h⟩ else 0

/-- The array `f` of `N` entries padded with zeros to `P` entries, read at `n`. -/
def padv [Zero M] {N P : ℕ} (f : Fin N → M) (n : Fin P) : M :=
  if h : n.val < N then f ⟨n.val, h⟩ else 0

/-- Inside the original range the padded array is the array. -/
theorem padv_of_lt [Zero M] {N P : ℕ} (f : Fin N → M) (n : Fin P) (h : n.val < N) : padv f n = f ⟨n.val, h⟩ :=
  dif_pos h

/-- Beyond the original range the padded array is zero. -/
theorem padv_of_not_lt [Zero M] {N P : ℕ} (f : Fin N → M) (n : Fin P) (h : ¬ n.val < N) : padv f n = 0 :=
  dif_neg h

/-- The padded array reads the zero-continued array at the index's value. -/
theorem padv_eq_padNat [Zero M] {N P : ℕ} (f : Fin N → M) (n : Fin P) : padv f n = padNat f n.val := rfl

/-- The product of two padded arrays is the padded product: beyond the range both factors are zero. -/
theorem padv_mul [Zero M] [Mul M] (h0 : (0 : M) * 0 = 0) {N P : ℕ} (a b : Fin N → M) (n : Fin P) :
    padv a n * padv b n = padv (fun j => a j * b j) n := by
  unfold padv
  split
  · rfl
  · exact h0

/-- Entry `j` of block `k`, of `K` blocks of `B` entries, lies in the range `K * B`. -/
theorem blk_lt {K B : ℕ} (k : Fin K) (j : Fin B) : B * k.val + j.val < K * B := by
  have hk : k.val + 1 ≤ K := k.isLt
  have hj : j.val < B := j.isLt
  calc B * k.val + j.val < B * k.val + B := by omega
    _ = B * (k.val + 1) := (Nat.mul_succ B k.val).symm
    _ ≤ B * K := Nat.mul_le_mul_left B hk
    _ = K * B := Nat.mul_comm B K

/-- Padding with zeros adds nothing to the sum. -/
theorem sum_padv [AddCommMonoid M] {N P : ℕ} (hNP : N ≤ P) (f : Fin N → M) :
    ∑ n : Fin P, padv f n = ∑ j : Fin N, f j := by
  have hP : ∑ n : Fin P, padv f n = ∑ n ∈ Finset.range P, padNat f n := Fin.sum_univ_eq_sum_range (padNat f) P
  have hN : ∑ j : Fin N, f j = ∑ n ∈ Finset.range N, padNat f n := by
    rw [← Fin.sum_univ_eq_sum_range (padNat f) N]
    refine Finset.sum_congr rfl fun j _ => ?_
    unfold padNat
    rw [dif_pos j.isLt]
  rw [hP, hN]
  refine (Finset.sum_subset (Finset.range_mono hNP) fun n _ hn => ?_).symm
  unfold padNat
  exact dif_neg (fun h => hn (Finset.mem_range.mpr h))

/-- Summing block by block, `K` blocks of `B` consecutive entries, is summing over the whole range `K * B`. -/
theorem sum_blocks [AddCommMonoid M] {K B : ℕ} (g : Fin (K * B) → M) :
    ∑ k : Fin K, ∑ j : Fin B, g ⟨B * k.val + j.val, blk_lt k j⟩ = ∑ n : Fin (K * B), g n := by
  rw [← Fintype.sum_prod_type', ← Equiv.sum_comp finProdFinEquiv g]
  exact Finset.sum_congr rfl fun p _ => congrArg g (Fin.ext (Nat.add_comm _ _))

/-- The blocked sum of the products of two zero-padded arrays is the sum of the products over the original
    range: `∑ k < K, ∑ j < B, pad a (B k + j) * pad b (B k + j) = ∑ j < N, a j * b j` when `N ≤ K * B`. -/
theorem blocked_padded_sum_gen [AddCommMonoid M] [Mul M] (h0 : (0 : M) * 0 = 0) {N K B : ℕ} (hN : N ≤ K * B)
    (a b : Fin N → M) :
    ∑ k : Fin K, ∑ j : Fin B,
        padv a (⟨B * k.val + j.val, blk_lt k j⟩ : Fin (K * B)) * padv b (⟨B * k.val + j.val, blk_lt k j⟩ : Fin (K * B))
      = ∑ j : Fin N, a j * b j := by
  simp only [padv_mul h0]
  rw [sum_blocks (fun n => padv (fun j => a j * b j) n)]
  exact sum_padv hN _

/-- The instance met: arrays of 10000 extended reals padded to 10240 = 8 * 1280, summed in 8 blocks of 1280. -/
theorem blocked_padded_sum (a b : Fin 10000 → EReal) :
    ∑ k : Fin 8, ∑ j : Fin 1280,
        padv a (⟨1280 * k.val + j.val, blk_lt k j⟩ : Fin 10240) * padv b (⟨1280 * k.val + j.val, blk_lt k j⟩ : Fin 10240)
      = ∑ j : Fin 10000, a j * b j :=
  blocked_padded_sum_gen (K := 8) (B := 1280) (mul_zero 0) (by norm_num) a b

/-- An accumulator that starts from zero plus the first term and adds one more term at every step holds, after
    step `n`, the sum of the terms `0, …, n`. -/
theorem acc_range [AddCommMonoid M] (b acc : ℕ → M) (h0 : acc 0 = 0 + b 0) (hs : ∀ n, acc (n + 1) = acc n + b (n + 1))
    (n : ℕ) : acc n = ∑ k ∈ Finset.range (n + 1), b k := by
  induction n with
  | zero => rw [h0, zero_add, Finset.sum_range_one]
  | succ n ih => rw [hs n, ih, ← Finset.sum_range_succ]

/-- A sum over the first eight natural numbers is the sum over `Fin 8` of the term at the index's value. -/
theorem sum_range_eight [AddCommMonoid M] (b : ℕ → M) : ∑ k ∈ Finset.range 8, b k = ∑ k : Fin 8, b k.val :=
  Finset.sum_range b

/-- The two together: after the last of eight steps the accumulator holds the sum of the eight terms. -/
theorem acc_eight [AddCommMonoid M] (b acc : ℕ → M) (h0 : acc 0 = 0 + b 0) (hs : ∀ n, acc (n + 1) = acc n + b (n + 1)) :
    acc 7 = ∑ k : Fin 8, b k.val :=
  (acc_range b acc h0 hs 7).trans (sum_range_eight b)

end Idealize.ShloMosaic.PadSum

end
-- ==== Proof.KIBridge.lean ====
/-
  The kernel's result on the padded arrays is the specification on the original arrays.

  The kernel works on `x` padded with zero rows to 10240 rows and on `A` padded with zero rows and columns to
  10240 x 10240, and forms the inner sums over the 10240 padded positions in 8 blocks of 1280, entered from zero.
  At a row `i < 10000` and a lane `d`:
  the padded `x` at `(i, d)` is `x(i, d)`;
  row `i` of the padded `A` is row `i` of `A` continued by zeros, and lane `d'` of the padded `x` is column `d'` of
  `x` continued by zeros, so the blocked sum of their products over the padded positions is the sum over the
  10000 original positions of `A(i, j) * x(j, d')` (the padding contributes `0 * 0 = 0`, and cutting a sum into
  blocks regroups it), and `0 +` that sum is the sum.
  Only commutativity and associativity of the sum, `0 + s = s` and `0 * 0 = 0` are used: no finiteness is needed.
-/
import proofs.«160787_j30923764531786_1_alg».proof.Proof.KIPadded
import proofs.«160787_j30923764531786_1_alg».proof.Proof.Spec
import proofs.«160787_j30923764531786_1_alg».proof.Proof.LibPadRead
import proofs.«160787_j30923764531786_1_alg».proof.Proof.LibPadSum

noncomputable section

namespace Cert.KernelIdeal.Bridge

open Cert.KernelIdeal Idealize.ShloMosaic Idealize.ShloMosaic.ValueIdx
open scoped BigOperators

/-- The array `x` padded with zero rows to 10240 rows. -/
abbrev xpad (x : FVec Ideal S10000x64 .f32) (hpx : S10000x64.Pads ![0, 0] ![240, 0] ![0, 0] S10240x64) (hu : 0 < S_.numel) :
    S10240x64.Idx → EReal :=
  pad S10240x64 ![0, 0] ![240, 0] ![0, 0] x (sitofp (F := Ideal) .f32 (constantI S_ 32 0#32)) hpx hu

/-- The array `A` padded with zero rows and columns to 10240 x 10240. -/
abbrev Apad (A : FVec Ideal S10000x10000 .f32) (hpA : S10000x10000.Pads ![0, 0] ![240, 240] ![0, 0] S10240x10240)
    (hu : 0 < S_.numel) : S10240x10240.Idx → EReal :=
  pad S10240x10240 ![0, 0] ![240, 240] ![0, 0] A (sitofp (F := Ideal) .f32 (constantI S_ 32 0#32)) hpA hu

/-- Lane `d` of the padded `x`, at any row of the padded range, is column `d` of `x` continued by zeros. -/
theorem xq_xpad (x : FVec Ideal S10000x64 .f32) (hpx : S10000x64.Pads ![0, 0] ![240, 0] ![0, 0] S10240x64) (hu : 0 < S_.numel)
    (r d : ℕ) (hr : r < 10240) (hd : d < 64) :
    Padded.xq (xpad x hpx hu) r d = PadSum.padv (fun j : Fin 10000 => x (ix2 j ⟨d, hd⟩)) (⟨r, hr⟩ : Fin 10240) := by
  unfold Padded.xq xpad
  rw [dif_pos ⟨hr, hd⟩, PadRead.pad_10000x64_apply, PadRead.sitofp_constantI_zero]
  rfl

/-- At a row of the original range the padded `x` is `x`. -/
theorem xq_xpad_of_lt (x : FVec Ideal S10000x64 .f32) (hpx : S10000x64.Pads ![0, 0] ![240, 0] ![0, 0] S10240x64) (hu : 0 < S_.numel)
    (i : Fin 10000) (d : Fin 64) : Padded.xq (xpad x hpx hu) i.val d.val = x (ix2 i d) := by
  rw [xq_xpad x hpx hu i.val d.val (Nat.lt_trans i.isLt (by norm_num)) d.isLt]
  exact PadSum.padv_of_lt _ (⟨i.val, Nat.lt_trans i.isLt (by norm_num)⟩ : Fin 10240) i.isLt

/-- Row `i < 10000` of the padded `A`, at any column of the padded range, is row `i` of `A` continued by zeros. -/
theorem Aq_Apad (A : FVec Ideal S10000x10000 .f32) (hpA : S10000x10000.Pads ![0, 0] ![240, 240] ![0, 0] S10240x10240)
    (hu : 0 < S_.numel) (i : Fin 10000) (c : ℕ) (hc : c < 10240) :
    Padded.Aq (Apad A hpA hu) i.val c = PadSum.padv (fun j' : Fin 10000 => A (ix2 i j')) (⟨c, hc⟩ : Fin 10240) := by
  unfold Padded.Aq Apad
  rw [dif_pos ⟨Nat.lt_trans i.isLt (by norm_num), hc⟩, PadRead.pad_10000x10000_apply, PadRead.sitofp_constantI_zero]
  by_cases hc' : c < 10000
  · rw [dif_pos ⟨i.isLt, hc'⟩, PadSum.padv_of_lt _ _ hc']
  · rw [dif_neg (fun h => hc' h.2), PadSum.padv_of_not_lt _ _ hc']

/-- The blocked inner sum over the padded positions, entered from zero, is the product `A · x` at `(i, d')`. -/
theorem inner_eq (x : FVec Ideal S10000x64 .f32) (A : FVec Ideal S10000x10000 .f32)
    (hpx : S10000x64.Pads ![0, 0] ![240, 0] ![0, 0] S10240x64) (hpA : S10000x10000.Pads ![0, 0] ![240, 240] ![0, 0] S10240x10240)
    (hu : 0 < S_.numel) (i : Fin 10000) (d' : Fin 64) :
    (0 + ∑ s ∈ Finset.range 8, ∑ j : Fin 1280,
        Padded.Aq (Apad A hpA hu) i.val (1280 * s + j.val) * Padded.xq (xpad x hpx hu) (1280 * s + j.val) d'.val)
      = Cert.Spec.dotAx x A i d' := by
  rw [zero_add, PadSum.sum_range_eight (fun s => ∑ j : Fin 1280,
        Padded.Aq (Apad A hpA hu) i.val (1280 * s + j.val) * Padded.xq (xpad x hpx hu) (1280 * s + j.val) d'.val)]
  unfold Cert.Spec.dotAx
  rw [← PadSum.blocked_padded_sum (fun j' : Fin 10000 => A (ix2 i j')) (fun j' : Fin 10000 => x (ix2 j' d'))]
  refine Finset.sum_congr rfl fun k _ => Finset.sum_congr rfl fun j _ => ?_
  beta_reduce
  rw [Aq_Apad A hpA hu i (1280 * k.val + j.val) (PadSum.blk_lt k j),
    xq_xpad x hpx hu (1280 * k.val + j.val) d'.val (PadSum.blk_lt k j) d'.isLt]

/-- The kernel's function of the padded arrays, at a row `i < 10000` and lane `d`, is the specification at `(i, d)`. -/
theorem bridge (x : FVec Ideal S10000x64 .f32) (A : FVec Ideal S10000x10000 .f32)
    (hpx : S10000x64.Pads ![0, 0] ![240, 0] ![0, 0] S10240x64) (hpA : S10000x10000.Pads ![0, 0] ![240, 240] ![0, 0] S10240x10240)
    (hu : 0 < S_.numel) (i : Fin 10000) (d : Fin 64) (i' : S10240x64.Idx) (h0 : (i' 0).val = i.val) (h1 : (i' 1).val = d.val) :
    Padded.Gq (pad S10240x64 ![0, 0] ![240, 0] ![0, 0] x (sitofp (F := Ideal) .f32 (constantI S_ 32 0#32)) hpx hu)
        (pad S10240x10240 ![0, 0] ![240, 240] ![0, 0] A (sitofp (F := Ideal) .f32 (constantI S_ 32 0#32)) hpA hu) i'
      = Cert.Spec.G x A (ix2 i d) := by
  show Padded.Gq (xpad x hpx hu) (Apad A hpA hu) i' = _
  rw [Padded.Gq_apply _ _ i' i.val d.val h0 h1, Cert.Spec.G_apply, xq_xpad_of_lt x hpx hu i d]
  refine congrArg₂ (· - ·) rfl (congrArg (_ * ·) (Finset.sum_congr rfl fun d' _ => ?_))
  rw [xq_xpad_of_lt x hpx hu i d', inner_eq x A hpx hpA hu i d']

end Cert.KernelIdeal.Bridge

end
-- ==== Proof.KIValue.lean ====
/-
  What the region leaves in its result array, at the ideal instance, as one function of the two padded arrays the
  region finds: at row `r`, lane `d`,
      (1 − 0.1·xp(r,d)) − 0.01 · Σ_{d'} xp(r,d') · (0 + Σ_{s<8} Σ_{j<1280} Ap(r, 1280 s + j) · xp(1280 s + j, d')).
  The accumulator after the last of a row block's eight reduction steps is the sum of the eight block products (a
  fold that resets at the multiples of 8); the eight-th step writes the output formula of it; the four row blocks
  tile the 10240 rows.
-/
import proofs.«160787_j30923764531786_1_alg».proof.Proof.KIFrame
import proofs.«160787_j30923764531786_1_alg».proof.Proof.KIPayload
import proofs.«160787_j30923764531786_1_alg».proof.Proof.KIPadded
import proofs.«160787_j30923764531786_1_alg».proof.Proof.KIBridge
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand Cert.KernelIdeal.Pay Cert.KernelIdeal.Padded
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The padded arrays read at natural-number coordinates -/

/-- The padded `x` as the region finds it, at row `r`, lane `d` (zero outside the array: never read there). -/
def xpN (c : Dev nD) (r d : ℕ) : EReal := xq (V c main_v0) r d
/-- The padded `A` as the region finds it, at row `r`, column `j`. -/
def ApN (c : Dev nD) (r j : ℕ) : EReal := Aq (V c main_v1) r j

/-- What the result array ends holding. -/
def Gp (c : Dev nD) : S10240x64.Idx → EReal := Gq (V c main_v0) (V c main_v1)

theorem Gp_apply (c : Dev nD) (i : S10240x64.Idx) (r d : ℕ) (h0 : (i 0).val = r) (h1 : (i 1).val = d) :
    Gp V c i = (Ideal.ofBits .f32 0x3F800000#32 - Ideal.ofBits .f32 0x3DCCCCCD#32 * xpN V c r d)
      - Ideal.ofBits .f32 0x3C23D70A#32 * ∑ d' : Fin 64, xpN V c r d'.val
          * (0 + ∑ s ∈ Finset.range 8, ∑ j : Fin 1280, ApN V c r (1280 * s + j.val) * xpN V c (1280 * s + j.val) d'.val) :=
  Gq_apply _ _ i r d h0 h1

/-! ## The index maps, decided over the grid -/

theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

theorem tN (t : Fin cfg0.N) : t.val < 32 := lt_of_lt_of_eq t.isLt N_0

/-! ## The blocks read at an index -/

/-- The `A` block at point `t`: rows of row block `t / 8`, columns of reduction step `t % 8`. -/
theorem iblk0_apply (c : Dev nD) (t : Fin cfg0.N) (p : Fin 2560) (j : Fin 1280) :
    (iblk V c 0 t : S2560x1280.Idx → EReal) (ix2 p j) = ApN V c (2560 * (t.val / 8) + p.val) (1280 * (t.val % 8) + j.val) := by
  have ht := tN t
  obtain ⟨e0, e1, -⟩ := idx_facts t
  have hr : 2560 * (t.val / 8) + p.val < 10240 := by have := p.isLt; omega
  have hc : 1280 * (t.val % 8) + j.val < 10240 := by have := j.isLt; omega
  unfold ApN Aq; rw [dif_pos ⟨hr, hc⟩]
  show V c main_v1 (((cfg0.win 0).blk t).view.emb (ix2 p j)) = V c main_v1 _
  refine congrArg _ (funext fun a => Fin.ext ?_)
  match a with
  | ⟨0, _⟩ => show win0_0.index t (0 : Fin 2) * 2560 + 1 * p.val = 2560 * (t.val / 8) + p.val; omega
  | ⟨1, _⟩ => show win0_0.index t (1 : Fin 2) * 1280 + 1 * j.val = 1280 * (t.val % 8) + j.val; omega

/-- The block of `x` rows at point `t`: rows of reduction step `t % 8`. -/
theorem iblk1_apply (c : Dev nD) (t : Fin cfg0.N) (j : Fin 1280) (q : Fin 64) :
    (iblk V c 1 t : S1280x64.Idx → EReal) (ix2 j q) = xpN V c (1280 * (t.val % 8) + j.val) q.val := by
  have ht := tN t
  obtain ⟨-, -, e0, e1, -⟩ := idx_facts t
  have hr : 1280 * (t.val % 8) + j.val < 10240 := by have := j.isLt; omega
  unfold xpN xq; rw [dif_pos ⟨hr, q.isLt⟩]
  show V c main_v0 (((cfg0.win 1).blk t).view.emb (ix2 j q)) = V c main_v0 _
  refine congrArg _ (funext fun a => Fin.ext ?_)
  match a with
  | ⟨0, _⟩ => show win0_1.index t (0 : Fin 2) * 1280 + 1 * j.val = 1280 * (t.val % 8) + j.val; omega
  | ⟨1, _⟩ => show win0_1.index t (1 : Fin 2) * 64 + 1 * q.val = q.val; omega

/-- The block of `x` rows of the output's row block `t / 8`. -/
theorem iblk2_apply (c : Dev nD) (t : Fin cfg0.N) (p : Fin 2560) (q : Fin 64) :
    (iblk V c 2 t : S2560x64.Idx → EReal) (ix2 p q) = xpN V c (2560 * (t.val / 8) + p.val) q.val := by
  have ht := tN t
  obtain ⟨-, -, -, -, e0, e1, -⟩ := idx_facts t
  have hr : 2560 * (t.val / 8) + p.val < 10240 := by have := p.isLt; omega
  unfold xpN xq; rw [dif_pos ⟨hr, q.isLt⟩]
  show V c main_v0 (((cfg0.win 2).blk t).view.emb (ix2 p q)) = V c main_v0 _
  refine congrArg _ (funext fun a => Fin.ext ?_)
  match a with
  | ⟨0, _⟩ => show win0_2.index t (0 : Fin 2) * 2560 + 1 * p.val = 2560 * (t.val / 8) + p.val; omega
  | ⟨1, _⟩ => show win0_2.index t (1 : Fin 2) * 64 + 1 * q.val = q.val; omega

/-! ## The accumulator after a row block's last reduction step -/

/-- The `A` block and the block of `x` rows at point `n`, at their literal types. -/
def blkA (c : Dev nD) (n : ℕ) (h : n < cfg0.N) : Vec Ideal S2560x1280 .f32 := iblk V c 0 ⟨n, h⟩
def blkX (c : Dev nD) (n : ℕ) (h : n < cfg0.N) : Vec Ideal S1280x64 .f32 := iblk V c 1 ⟨n, h⟩

/-- Point `n`'s block product at an index of the accumulator (zero past the grid: never used). -/
def Mn (c : Dev nD) (n : ℕ) (i : S2560x64.Idx) : EReal :=
  if h : n < cfg0.N then ∑ j : Fin 1280, blkA V c n h (ix2 (i 0) j) * blkX V c n h (ix2 j (i 1)) else 0

theorem pay2_at (a : Vec Ideal S2560x1280 .f32) (b : Vec Ideal S1280x64 .f32) (s : Vec Ideal S2560x64 .f32) (i : S2560x64.Idx) :
    k0_pay2 (F := Ideal) a b s i = s i + ∑ j : Fin 1280, a (ix2 (i 0) j) * b (ix2 j (i 1)) := by
  obtain ⟨p, q, rfl⟩ : ∃ (p : Fin 2560) (q : Fin 64), i = ix2 p q := ⟨i 0, i 1, eq_ix2 i⟩
  exact pay2_apply a b s p q

/-- After the last reduction step of its row block the accumulator holds zero plus the eight block products. -/
theorem acc_last (c : Dev nD) (t : Fin cfg0.N) (h7 : t.val % 8 = 7) (i : S2560x64.Idx) :
    accAt V c t.val t.isLt i = 0 + ∑ s ∈ Finset.range 8, Mn V c (8 * (t.val / 8) + s) i := by
  have ht := tN t
  have hN : cfg0.N = 32 := N_0
  have h' : 8 * (t.val / 8) + t.val % 8 < cfg0.N := by rw [Nat.div_add_mod]; exact t.isLt
  have e := Pipeline.eq_accAt_of_mod (N := cfg0.N) (accAt V c) 8
    (fun n h => k0_pay2 (F := Ideal) (iblk V c 0 ⟨n, h⟩) (iblk V c 1 ⟨n, h⟩) (k0_pay1 (F := Ideal)))
    (fun n h acc => k0_pay2 (F := Ideal) (iblk V c 0 ⟨n, h⟩) (iblk V c 1 ⟨n, h⟩) acc)
    (fun n h e => accAt_first V c ⟨n, h⟩ e)
    (fun n h e => accAt_step V c ⟨n + 1, h⟩ e)
    (by decide) t.val t.isLt h'
  rw [e]
  have := Pipeline.accAt_add_apply (N := cfg0.N) (ι := S2560x64.Idx) (β := EReal)
    (fun n h => k0_pay2 (F := Ideal) (iblk V c 0 ⟨n, h⟩) (iblk V c 1 ⟨n, h⟩) (k0_pay1 (F := Ideal)))
    (fun n h acc => k0_pay2 (F := Ideal) (iblk V c 0 ⟨n, h⟩) (iblk V c 1 ⟨n, h⟩) acc)
    (fun _ => 0) (Mn V c) (8 * (t.val / 8)) 7
    (fun h i => by rw [pay2_at, pay1_apply]; unfold Mn; rw [dif_pos h]; rfl)
    (fun n h acc i _ _ => by rw [pay2_at]; unfold Mn; rw [dif_pos h]; rfl)
    (t.val % 8) (by omega) h' i
  rw [this, h7]

/-- A block product of the row block `t / 8` at reduction step `s`, through the padded arrays. -/
theorem Mn_apply (c : Dev nD) (q s : ℕ) (hq : q < 4) (hs : s < 8) (p : Fin 2560) (d : Fin 64) :
    Mn V c (8 * q + s) (ix2 p d) = ∑ j : Fin 1280, ApN V c (2560 * q + p.val) (1280 * s + j.val) * xpN V c (1280 * s + j.val) d.val := by
  have hN : cfg0.N = 32 := N_0
  have h : 8 * q + s < cfg0.N := by omega
  unfold Mn; rw [dif_pos h]
  refine Finset.sum_congr rfl fun j _ => ?_
  have e0 : (ix2 p d : S2560x64.Idx) 0 = p := rfl
  have e1 : (ix2 p d : S2560x64.Idx) 1 = d := rfl
  rw [e0, e1]
  unfold blkA blkX
  rw [iblk0_apply, iblk1_apply]
  have d8 : (8 * q + s) / 8 = q := by omega
  have m8 : (8 * q + s) % 8 = s := by omega
  show ApN V c (2560 * ((8 * q + s) / 8) + p.val) (1280 * ((8 * q + s) % 8) + j.val) * xpN V c (1280 * ((8 * q + s) % 8) + j.val) d.val = _
  rw [d8, m8]

/-! ## What a flush writes, the cover, the final array -/

/-- What the last reduction step of a row block writes back is that row block of `Gp`. -/
theorem flushed_eq (c : Dev nD) (t : Fin cfg0.N) (hf : (cfg0.win 3).flush t = true) :
    (dat0 V c).flushed 3 t = ((cfg0.win 3).blk t).view.read (Elt Ideal) (Gp V c) := by
  have h7 := (flush0_3 t).mp hf
  have ht := tN t
  obtain ⟨-, -, -, -, -, -, e0, e1⟩ := idx_facts t
  show (cfg0.win 3).cut (grid0.coords t) ((dat0 V c).after 3 t) = _
  rw [after3]
  funext y
  obtain ⟨p, q, rfl⟩ : ∃ (p : Fin 2560) (q : Fin 64), y = ix2 p q := ⟨y 0, y 1, eq_ix2 y⟩
  show k0_pay3 (F := Ideal) (iblk V c 2 t) (accAt V c t.val t.isLt) (ix2 p q) = Gp V c (((cfg0.win 3).blk t).view.emb (ix2 p q))
  have r0 : ((((cfg0.win 3).blk t).view.emb (ix2 p q) : S10240x64.Idx) 0).val = 2560 * (t.val / 8) + p.val := by
    show win0_3.index t (0 : Fin 2) * 2560 + 1 * p.val = _; omega
  have r1 : ((((cfg0.win 3).blk t).view.emb (ix2 p q) : S10240x64.Idx) 1).val = q.val := by
    show win0_3.index t (1 : Fin 2) * 64 + 1 * q.val = _; omega
  rw [pay3_apply, Gp_apply V c _ _ _ r0 r1, iblk2_apply]
  refine congrArg _ (congrArg _ (Finset.sum_congr rfl fun d' _ => ?_))
  rw [iblk2_apply, acc_last V c t h7]
  refine congrArg _ (congrArg _ (Finset.sum_congr rfl fun s hs => ?_))
  exact Mn_apply V c (t.val / 8) s (by omega) (Finset.mem_range.mp hs) p d'

/-- An index of the result array is in point `t`'s block iff each coordinate is in the block's range. -/
theorem mem_blk3 (t : Fin cfg0.N) (i : S10240x64.Idx) :
    i ∈ ((cfg0.win 3).blk t).view.set ↔ ∀ a : Fin 2, win0_3.index t a * S2560x64.size a ≤ (i a).val ∧ (i a).val < win0_3.index t a * S2560x64.size a + S2560x64.size a := by
  show i ∈ ((View.whole main_v2).slice (win0_3.rect t)).set ↔ _
  rw [View.set_slice_whole, Rect.mem_set_unit]
  exact Iff.rfl

/-- The four row blocks' last reduction steps cover the result array. -/
theorem cover (i : S10240x64.Idx) : ∃ t : Fin cfg0.N, (cfg0.win 3).flush t = true ∧ i ∈ ((cfg0.win 3).blk t).view.set := by
  have hi0 : (i 0).val < 10240 := (i 0).isLt
  have hi1 : (i 1).val < 64 := (i 1).isLt
  have hN : cfg0.N = 32 := N_0
  let t : Fin cfg0.N := ⟨8 * ((i 0).val / 2560) + 7, by omega⟩
  have htv : t.val = 8 * ((i 0).val / 2560) + 7 := rfl
  obtain ⟨-, -, -, -, -, -, e0, e1⟩ := idx_facts t
  refine ⟨t, (flush0_3 t).mpr (by omega), ?_⟩
  rw [mem_blk3]
  intro a
  match a with
  | ⟨0, _⟩ => show win0_3.index t (0 : Fin 2) * 2560 ≤ (i 0).val ∧ (i 0).val < win0_3.index t (0 : Fin 2) * 2560 + 2560; omega
  | ⟨1, _⟩ => show win0_3.index t (1 : Fin 2) * 64 ≤ (i 1).val ∧ (i 1).val < win0_3.index t (1 : Fin 2) * 64 + 64; omega

/-- The result array after the region. -/
theorem final (c : Dev nD) : (dat0 V c).arrAt 3 cfg0.N = Gp V c :=
  (dat0 V c).arrAt_eq_of_cover 3 (Gp V c) (fun t hf => flushed_eq V c t hf) cover

/-! ## The kernel's run, with its result -/

section Run
variable (m : (ℓ : Loc nD τ sig) → Buf (Elt Ideal) ℓ) (ρ : Dev nD → PrngReg)

/-- The kernel's result is the specification of its two float arguments: the slice keeps the first 10000 rows of
    what the region left, and on those rows the padded formula is the unpadded one. -/
theorem result_eq (c : Dev nD) :
    (W6 m ρ c (Proc.devRef .tc main_v3) : S10000x64.Idx → EReal)
      = Cert.Spec.G (m ((c : Thread nD τ).loc main_arg1)) (m ((c : Thread nD τ).loc main_arg2)) := by
  rw [W6_v3, W5_out, final (V4 m ρ) c]
  funext i'
  obtain ⟨i, d, rfl⟩ : ∃ (i : Fin 10000) (d : Fin 64), i' = ix2 i d := ⟨i' 0, i' 1, eq_ix2 i'⟩
  have hi : i.val < 10240 := by have := i.isLt; omega
  rw [extractStridedSlice_apply ![0, 0] (Gp (V4 m ρ) c) slices_S10240x64_S10000x64_0_0 (ix2 i d)
    (ix2 (⟨i.val, hi⟩ : Fin 10240) d) (fun a => by
      match a with
      | ⟨0, _⟩ => show i.val = 0 + i.val; omega
      | ⟨1, _⟩ => show d.val = 0 + d.val; omega)]
  unfold Gp
  rw [V4_v0, V4_v1]
  exact Cert.KernelIdeal.Bridge.bridge _ _ _ _ _ i d _ rfl rfl

/-- The kernel runs to the end, its result the specification, its arguments as launched. -/
theorem run_G : θ_run defs (onTc (τ := τ) (main (F := Ideal))) ⟨m, fun _ => 0, ρ⟩ (fun r => ∀ c : Dev nD,
      r.2.mem ((c.tc : Thread nD τ).loc main_v3) = Cert.Spec.G (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c _ (mem_uc main_v3 (by decide))).trans (result_eq m ρ c),
      (h c _ (mem_uc main_arg0 (by decide))).trans (W6_arg0 m ρ c),
      (h c _ (mem_uc main_arg1 (by decide))).trans (W6_arg1 m ρ c),
      (h c _ (mem_uc main_arg2 (by decide))).trans (W6_arg2 m ρ c)⟩) (run_all m ρ)

end Run

end Cert.KernelIdeal.Val

end
-- ==== Proof.RefIsG.lean ====
/-
  The reference program's result, read index by index at the ideal instance, is the specification.

  The reference forms `A · x` by one contraction over the 10000 columns of `A`, multiplies it lane by lane with
  `x`, sums each row's 64 lanes from the zero word, keeps that sum as a column, scales the column by the word
  `r`, spreads it back over the 64 lanes, and subtracts it from `one - b * x`.  At row `i`, lane `d` this is

      (one - b * x(i, d)) - r * (0 + Σ_{d' < 64} x(i, d') * Σ_{j < 10000} A(i, j) * x(j, d')),

  and the zero word denotes `0`, the neutral element of the sum: the specification's value at `(i, d)`.  Every step is
  an unfolding of one operation at an index; the only law used is `0 + s = s`.
-/
import proofs.«160787_j30923764531786_1_alg».proof.Defs
import proofs.«160787_j30923764531786_1_alg».proof.Proof.Gen.ReferenceIdeal.Read
import proofs.«160787_j30923764531786_1_alg».proof.Proof.Gen.Pre_finite_inputs
import proofs.«160787_j30923764531786_1_alg».proof.Proof.Spec

noncomputable section

open Idealize.ShloMosaic Idealize.ShloMosaic.TcCoe Idealize.SL.Sem

namespace Cert.ReferenceIdeal.RefValue

open Cert.ReferenceIdeal Cert.ReferenceIdeal.Gen Idealize.ShloMosaic.ValueIdx
open scoped BigOperators

/-- The last stage of the reference, as a function of the arrays `x` and `A`, is the specification. -/
theorem val_is_G (x : (⟨S10000x64, .f32⟩ : BufTy).Contents (Elt Ideal)) (A : (⟨S10000x10000, .f32⟩ : BufTy).Contents (Elt Ideal)) :
    Read.val_main_v11 (F := Ideal) x A = Cert.Spec.G x A := by
  funext p
  obtain ⟨i, d, rfl⟩ : ∃ (i : Fin 10000) (d : Fin 64), p = ix2 i d := ⟨p 0, p 1, eq_ix2 p⟩
  -- the row of the lane sum is the row of the result; the contraction reads row `i` of `A` and lane `d'` of `x`
  have e2 : ∀ k : Fin 64, Read.idx_main_v2 (Read.idx_main_v3 (Read.idx_main_v10 (ix2 i d))) k = ix2 i k :=
    fun k => funext fun a => Fin.ext (by match a with | ⟨0, _⟩ => rfl | ⟨1, _⟩ => rfl)
  have el : ∀ (k : Fin 64) (j : Fin 10000), Read.lidx_main_v0 (ix2 i k) j = ix2 i j :=
    fun k j => funext fun a => Fin.ext (by match a with | ⟨0, _⟩ => rfl | ⟨1, _⟩ => rfl)
  have er : ∀ (k : Fin 64) (j : Fin 10000), Read.ridx_main_v0 (ix2 i k) j = ix2 j k :=
    fun k j => funext fun a => Fin.ext (by match a with | ⟨0, _⟩ => rfl | ⟨1, _⟩ => rfl)
  rw [Read.val_main_v11_apply, Read.val_main_v9_apply, Read.val_main_v8_apply, Read.val_main_cst_2_apply,
    Read.val_main_v7_apply, Read.val_main_v6_apply, Read.val_main_cst_1_apply, Read.val_main_v10_apply,
    Read.val_main_v5_apply, Read.val_main_v4_apply, Read.val_main_cst_0_apply, Read.val_main_v3_apply,
    Read.val_main_v2_apply, Read.val_main_cst_apply]
  simp only [e2, Read.val_main_v1_apply, Read.val_main_v0_apply, el, er, Ideal.mulf_def, Ideal.subf_def,
    Ideal.ofBits_def, Ideal.ofBits_zero_f32, zero_add]
  rfl

/-- The reference run's result term, as a function of the arrays `x` and `A`, is the specification. -/
theorem ref_is_G (x : FVec Ideal S10000x64 .f32) (A : FVec Ideal S10000x10000 .f32) :
    subf (F := Ideal) (subf (broadcastInDim S10000x64 ![] bcast_S_S10000x64 (constant S_ .f32 0x3F800000#32)) (mulf (broadcastInDim S10000x64 ![] bcast_S_S10000x64 (constant S_ .f32 0x3DCCCCCD#32)) x)) (broadcastInDim S10000x64 ![0, 1] bcast_S10000x1_S10000x64_0_1 (mulf (broadcastInDim S10000x1 ![] bcast_S_S10000x1 (constant S_ .f32 0x3C23D70A#32)) (broadcastInDim S10000x1 ![0] bcast_S10000_S10000x1_0 (Host.reduceAdd (mulf x (Host.dotGeneral (φ₁ := .f32) (φ₂ := .f32) dot_S10000x10000_S10000x64_S10000x64_1_0_0_1_n_n none A x)) (constant S_ .f32 0x00000000#32) reducesTo_S10000x64_S10000_d1 h_S_))))
      = Cert.Spec.G x A :=
  (Read.val_main_v11_eq (F := Ideal) x A).trans (val_is_G x A)

/-- The reference runs to the end, faults nowhere and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's run with its result stated as the specification of the argument arrays as the run found them. -/
theorem run_G (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v11)
          = Cert.Spec.G (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono (fun _ h c => ⟨(h c).1.trans (ref_is_G _ _), (h c).2⟩)
    (Cert.ReferenceIdeal.Value.run (F := Ideal) m' ρ')

end Cert.ReferenceIdeal.RefValue

end
-- ==== Proof.lean ====
/-
  The certificate's five claims.

  The kernel computes, for a 10000 × 64 array `x` and a 10000 × 10000 array `A`,
      out(i,d) = (1 − 0.1·x(i,d)) − 0.01 · Σ_{d'} x(i,d') · Σ_j A(i,j)·x(j,d')
  on zero-padded copies, the inner product cut into eight blocks of 1280 columns accumulated in a scratch buffer
  over a grid axis; the reference computes the same formula directly.  At the ideal instance the two agree: zero
  rows and columns add nothing to a sum, and a sum may be taken block by block.  No rewrite was applied in printing
  the idealized kernel, so that it is the kernel's sanctioned idealization holds trivially.
-/
import proofs.«160787_j30923764531786_1_alg».proof.Defs
import proofs.«160787_j30923764531786_1_alg».proof.Proof.Gen.Kernel
import proofs.«160787_j30923764531786_1_alg».proof.Proof.Gen.Kernel.Skeleton
import proofs.«160787_j30923764531786_1_alg».proof.Proof.Gen.Kernel.Launch
import proofs.«160787_j30923764531786_1_alg».proof.Proof.Gen.Kernel.Points
import proofs.«160787_j30923764531786_1_alg».proof.Proof.Gen.KernelIdeal
import proofs.«160787_j30923764531786_1_alg».proof.Proof.Gen.KernelIdeal.Skeleton
import proofs.«160787_j30923764531786_1_alg».proof.Proof.Gen.KernelIdeal.Launch
import proofs.«160787_j30923764531786_1_alg».proof.Proof.Gen.KernelIdeal.Points
import proofs.«160787_j30923764531786_1_alg».proof.Proof.Gen.ReferenceIdeal
import proofs.«160787_j30923764531786_1_alg».proof.Proof.Gen.Pre_finite_inputs
import proofs.«160787_j30923764531786_1_alg».proof.Proof.KFrame
import proofs.«160787_j30923764531786_1_alg».proof.Proof.KIValue
import proofs.«160787_j30923764531786_1_alg».proof.Proof.RefIsG
import Idealize.ShloMosaic.Adequacy
import Idealize.ShloMosaic.Init

noncomputable section

namespace Cert.Proof

open Idealize.ShloMosaic Idealize.SL.Sem

/-- The word-level kernel runs to the end, faults nowhere, and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- From memories agreeing on the arguments, the idealized kernel and the idealized reference both end with the
    specification of the (shared) float arguments as their result. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Val.run_G m ρ, ?_⟩
  exact (θ_run Cert.ReferenceIdeal.defs _ _).mono
    (fun _ h c => ⟨by rw [(h c).1, (hagree c).2.1, (hagree c).2.2], (h c).2⟩)
    (Cert.ReferenceIdeal.RefValue.run_G m' ρ')

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
